-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x16 : Shape := ⟨2, ![8192, 16]⟩
abbrev S128 : Shape := ⟨1, ![128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x16 : S_.BroadcastsInDim S8192x16 (![] : Fin 0 → Fin S8192x16.rank)
  reducesTo_S8192x16_S_d0_1 : S8192x16.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S8192x128 .f32) (main_arg1 : FVec F S8192x16 .f32) (main_arg2 : FVec F S128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x16 .f32 := Host.absf main_arg1
  let main_cst_0 : FVec F S_ .f32 := constant S_ .f32 0x7F800000#32
  let main_v5 : FVec F S8192x16 .f32 := broadcastInDim S8192x16 ![] bcast_S_S8192x16 main_cst_0
  let main_v6 : IVec S8192x16 1 := cmpf .olt main_v4 main_v5
  let main_c_1 : IVec S_ 1 := constantI S_ 1 1#1
  let main_v7 : IVec S_ 1 := (fun x v => Host.reduce IntOp.andi x v reducesTo_S8192x16_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S8192x128 : Shape := ⟨2, ![8192, 128]⟩
abbrev S8192x16 : Shape := ⟨2, ![8192, 16]⟩
abbrev S128 : Shape := ⟨1, ![128]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S128x128 : Shape := ⟨2, ![128, 128]⟩
abbrev S128x1 : Shape := ⟨2, ![128, 1]⟩
abbrev S128x16 : Shape := ⟨2, ![128, 16]⟩
abbrev S128x8192 : Shape := ⟨2, ![128, 8192]⟩

abbrev nBuf : Space → Nat
  | .hbm => 41
  | .vmem => 18
  | .smem => 0
  | _ => 0

abbrev bufTy : (tb : Table) → Fin (tcTables nBuf tb) → BufTy
  | .hbm, ⟨0, _⟩ => ⟨S8192x128, .f32⟩
  | .hbm, ⟨1, _⟩ => ⟨S8192x16, .f32⟩
  | .hbm, ⟨2, _⟩ => ⟨S128, .f32⟩
  | .hbm, ⟨3, _⟩ => ⟨S8192x128, .bf16⟩
  | .hbm, ⟨4, _⟩ => ⟨S8192x16, .bf16⟩
  | .hbm, ⟨5, _⟩ => ⟨S8192x128, .f32⟩
  | .hbm, ⟨6, _⟩ => ⟨S_, .f32⟩
  | .hbm, ⟨7, _⟩ => ⟨S8192, .f32⟩
  | .hbm, ⟨8, _⟩ => ⟨S8192x16, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S1x8192, .f32⟩
  | .hbm, ⟨13, _⟩ => ⟨S8192x1, .f32⟩
  | .hbm, ⟨14, _⟩ => ⟨S1x8192, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S8192x1, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S128, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .local _ .vmem, ⟨0, _⟩ => ⟨S128x128, .bf16⟩
  | .local _ .vmem, ⟨1, _⟩ => ⟨S128x128, .bf16⟩
  | .local _ .vmem, ⟨2, _⟩ => ⟨S8192x128, .bf16⟩
  | .local _ .vmem, ⟨3, _⟩ => ⟨S128x1, .f32⟩
  | .local _ .vmem, ⟨4, _⟩ => ⟨S128x1, .f32⟩
  | .local _ .vmem, ⟨5, _⟩ => ⟨S1x8192, .f32⟩
  | .local _ .vmem, ⟨6, _⟩ => ⟨S128x16, .bf16⟩
  | .local _ .vmem, ⟨7, _⟩ => ⟨S128x16, .bf16⟩
  | .local _ .vmem, ⟨8, _⟩ => ⟨S8192x16, .bf16⟩
  | .local _ .vmem, ⟨9, _⟩ => ⟨S128x1, .f32⟩
  | .local _ .vmem, ⟨10, _⟩ => ⟨S128x1, .f32⟩
  | .local _ .vmem, ⟨11, _⟩ => ⟨S1x8192, .f32⟩
  | .local _ .vmem, ⟨12, _⟩ => ⟨S128x1, .f32⟩
  | .local _ .vmem, ⟨13, _⟩ => ⟨S128x1, .f32⟩
  | .local _ .vmem, ⟨14, _⟩ => ⟨S128x1, .f32⟩
  | .local _ .vmem, ⟨15, _⟩ => ⟨S128x1, .f32⟩
  | .local _ .vmem, ⟨16, _⟩ => ⟨S128x1, .f32⟩
  | .local _ .vmem, ⟨17, _⟩ => ⟨S128x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev main_cst_1 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x16 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8192x16 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x8192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bitsLt_bf16_f32 : FTy.bits .bf16 < FTy.bits .f32
  reducesTo_S8192x128_S8192_d1 : S8192x128.ReducesTo [1] S8192
  h_S_ : 0 < S_.numel
  reducesTo_S8192x16_S8192_d1 : S8192x16.ReducesTo [1] S8192
  shapeCasts_S8192_S8192x1 : S8192.ShapeCasts S8192x1
  shapeCasts_S8192_S1x8192 : S8192.ShapeCasts S1x8192
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S128x1_S128x8192 : S128x1.Broadcasts S128x8192
  broadcasts_S1x8192_S128x8192 : S1x8192.Broadcasts S128x8192
  reduces_S128x8192_S128 : S128x8192.Reduces [1] S128
  shapeCasts_S128_S128x1 : S128.ShapeCasts S128x1
  inb_S128x16_S128x16_0_0 : ∀ a, (![0, 0] : Fin 2 → Nat) a + S128x16.size a ≤ S128x16.size a
  h_S128x16 : 0 < S128x16.numel
  shapeCasts_S128x16_S128x16 : S128x16.ShapeCasts S128x16
  inb_S8192x16_S8192x16_0_0 : ∀ a, (![0, 0] : Fin 2 → Nat) a + S8192x16.size a ≤ S8192x16.size a
  h_S8192x16 : 0 < S8192x16.numel
  shapeCasts_S8192x16_S8192x16 : S8192x16.ShapeCasts S8192x16
  reducesTo_S8192x1_S_d0_1 : S8192x1.ReducesTo [0, 1] S_
  reducesTo_S128_S_d0 : S128.ReducesTo [0] S_
  dot_S128x128_S8192x128_S128x8192_1_1_0_0_n_n_wf : DotDims.WF S128x128 S8192x128 S128x8192 [1] [1] [0] [0] [] []
  dot_S128x16_S8192x16_S128x8192_1_1_0_0_n_n_wf : DotDims.WF S128x16 S8192x16 S128x8192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S8192x128.size a
  hwx0_0 : ∀ i : grid0.Coords, EltTy.bits .bf16 = 32 ∨ (Rect.block (s := S8192x128) S128x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .bf16 = 32 ∨ (Rect.block (s := S8192x128) S8192x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S8192x1.size a
  hwx0_2 : ∀ i : grid0.Coords, EltTy.bits .f32 = 32 ∨ (Rect.block (s := S8192x1) S128x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .f32 = 32 ∨ (Rect.block (s := S1x8192) S1x8192.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x16.size a ≤ S8192x16.size a
  hwx0_4 : ∀ i : grid0.Coords, EltTy.bits .bf16 = 32 ∨ (Rect.block (s := S8192x16) S128x16.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8192x16.size a ≤ S8192x16.size a
  hwx0_5 : ∀ i : grid0.Coords, EltTy.bits .bf16 = 32 ∨ (Rect.block (s := S8192x16) S8192x16.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x1.size a ≤ S8192x1.size a
  hwx0_6 : ∀ i : grid0.Coords, EltTy.bits .f32 = 32 ∨ (Rect.block (s := S8192x1) S128x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x8192.size a ≤ S1x8192.size a
  hwx0_7 : ∀ i : grid0.Coords, EltTy.bits .f32 = 32 ∨ (Rect.block (s := S1x8192) S1x8192.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x1.size a ≤ S8192x1.size a
  hwx0_8 : ∀ i : grid0.Coords, EltTy.bits .f32 = 32 ∨ (Rect.block (s := S8192x1) S128x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x1.size a ≤ S8192x1.size a
  hwx0_9 : ∀ i : grid0.Coords, EltTy.bits .f32 = 32 ∨ (Rect.block (s := S8192x1) S128x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x1.size a ≤ S8192x1.size a
  hwx0_10 : ∀ i : grid0.Coords, EltTy.bits .f32 = 32 ∨ (Rect.block (s := S8192x1) S128x1.size (cc0_transform_10 i) (hinb0_10 i)).WholeWords (EltTy.packing .f32)

variable [Facts₀]

def dot_S128x128_S8192x128_S128x8192_1_1_0_0_n_n : DotDims S128x128 S8192x128 S128x8192 where
  lhsContracting := [1]
  rhsContracting := [1]
  lhsNonContracting := [0]
  rhsNonContracting := [0]
  lhsBatch := []
  rhsBatch := []
  wf := dot_S128x128_S8192x128_S128x8192_1_1_0_0_n_n_wf
def dot_S128x16_S8192x16_S128x8192_1_1_0_0_n_n : DotDims S128x16 S8192x16 S128x8192 where
  lhsContracting := [1]
  rhsContracting := [1]
  lhsNonContracting := [0]
  rhsNonContracting := [0]
  lhsBatch := []
  rhsBatch := []
  wf := dot_S128x16_S8192x16_S128x8192_1_1_0_0_n_n_wf

abbrev win0_0 : Pipeline.Window sig grid0 :=
  Pipeline.Window.ofSpec (Memref.whole main_v0) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S128x16.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S8192x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S128x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x8192.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10_0) S128x1.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v10_1) S128x1.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v10_2) S128x1.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S8192x128 : Shape := ⟨2, ![8192, 128]⟩
abbrev S8192x16 : Shape := ⟨2, ![8192, 16]⟩
abbrev S128 : Shape := ⟨1, ![128]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S128x8192 : Shape := ⟨2, ![128, 8192]⟩
abbrev S16x8192 : Shape := ⟨2, ![16, 8192]⟩

abbrev nBuf : Space → Nat
  | .hbm => 101
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x16, .f32⟩
  | .hbm, ⟨2, _⟩ => ⟨S128, .f32⟩
  | .hbm, ⟨3, _⟩ => ⟨S8192x128, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S1x8192, .f32⟩
  | .hbm, ⟨8, _⟩ => ⟨S8192x8192, .f32⟩
  | .hbm, ⟨9, _⟩ => ⟨S8192x8192, .f32⟩
  | .hbm, ⟨10, _⟩ => ⟨S8192x8192, .f32⟩
  | .hbm, ⟨11, _⟩ => ⟨S128x8192, .f32⟩
  | .hbm, ⟨12, _⟩ => ⟨S8192x8192, .f32⟩
  | .hbm, ⟨13, _⟩ => ⟨S_, .f32⟩
  | .hbm, ⟨14, _⟩ => ⟨S8192x8192, .f32⟩
  | .hbm, ⟨15, _⟩ => ⟨S8192x8192, .f32⟩
  | .hbm, ⟨16, _⟩ => ⟨S8192x8192, .f32⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S8192x16, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S1x8192, .f32⟩
  | .hbm, ⟨30, _⟩ => ⟨S8192x8192, .f32⟩
  | .hbm, ⟨31, _⟩ => ⟨S8192x8192, .f32⟩
  | .hbm, ⟨32, _⟩ => ⟨S8192x8192, .f32⟩
  | .hbm, ⟨33, _⟩ => ⟨S16x8192, .f32⟩
  | .hbm, ⟨34, _⟩ => ⟨S8192x8192, .f32⟩
  | .hbm, ⟨35, _⟩ => ⟨S_, .f32⟩
  | .hbm, ⟨36, _⟩ => ⟨S8192x8192, .f32⟩
  | .hbm, ⟨37, _⟩ => ⟨S8192x8192, .f32⟩
  | .hbm, ⟨38, _⟩ => ⟨S8192x8192, .f32⟩
  | .hbm, ⟨39, _⟩ => ⟨S_, .f32⟩
  | .hbm, ⟨40, _⟩ => ⟨S8192x8192, .f32⟩
  | .hbm, ⟨41, _⟩ => ⟨S8192x8192, .f32⟩
  | .hbm, ⟨42, _⟩ => ⟨S8192x8192, .f32⟩
  | .hbm, ⟨43, _⟩ => ⟨S_, .f32⟩
  | .hbm, ⟨44, _⟩ => ⟨S8192x8192, .f32⟩
  | .hbm, ⟨45, _⟩ => ⟨S8192x8192, .f32⟩
  | .hbm, ⟨46, _⟩ => ⟨S8192x8192, .f32⟩
  | .hbm, ⟨47, _⟩ => ⟨S_, .f32⟩
  | .hbm, ⟨48, _⟩ => ⟨S8192, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S_, .f32⟩
  | .hbm, ⟨54, _⟩ => ⟨S8192, .f32⟩
  | .hbm, ⟨55, _⟩ => ⟨S1x8192, .f32⟩
  | .hbm, ⟨56, _⟩ => ⟨S_, .f32⟩
  | .hbm, ⟨57, _⟩ => ⟨S1x8192, .f32⟩
  | .hbm, ⟨58, _⟩ => ⟨S1x8192, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S8192x8192, .f32⟩
  | .hbm, ⟨64, _⟩ => ⟨S8192x8192, .f32⟩
  | .hbm, ⟨65, _⟩ => ⟨S8192x8192, .f32⟩
  | .hbm, ⟨66, _⟩ => ⟨S8192x8192, .f32⟩
  | .hbm, ⟨67, _⟩ => ⟨S8192x8192, .f32⟩
  | .hbm, ⟨68, _⟩ => ⟨S8192x8192, .f32⟩
  | .hbm, ⟨69, _⟩ => ⟨S_, .f32⟩
  | .hbm, ⟨70, _⟩ => ⟨S8192, .f32⟩
  | .hbm, ⟨71, _⟩ => ⟨S8192x1, .f32⟩
  | .hbm, ⟨72, _⟩ => ⟨S_, .f32⟩
  | .hbm, ⟨73, _⟩ => ⟨S8192x1, .f32⟩
  | .hbm, ⟨74, _⟩ => ⟨S8192x1, .f32⟩
  | .hbm, ⟨75, _⟩ => ⟨S_, .f32⟩
  | .hbm, ⟨76, _⟩ => ⟨S8192, .f32⟩
  | .hbm, ⟨77, _⟩ => ⟨S1x8192, .f32⟩
  | .hbm, ⟨78, _⟩ => ⟨S_, .f32⟩
  | .hbm, ⟨79, _⟩ => ⟨S1x8192, .f32⟩
  | .hbm, ⟨80, _⟩ => ⟨S1x8192, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S8192x8192, .f32⟩
  | .hbm, ⟨86, _⟩ => ⟨S8192x8192, .f32⟩
  | .hbm, ⟨87, _⟩ => ⟨S8192x8192, .f32⟩
  | .hbm, ⟨88, _⟩ => ⟨S8192x8192, .f32⟩
  | .hbm, ⟨89, _⟩ => ⟨S8192x8192, .f32⟩
  | .hbm, ⟨90, _⟩ => ⟨S8192x8192, .f32⟩
  | .hbm, ⟨91, _⟩ => ⟨S8192x8192, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S128, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_6 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_7 : Ref sig .tc := ⟨.hbm, 47, rfl⟩
abbrev main_v36 : Ref sig .tc := ⟨.hbm, 48, rfl⟩
abbrev main_v37 : Ref sig .tc := ⟨.hbm, 49, rfl⟩
abbrev main_cst_8 : Ref sig .tc := ⟨.hbm, 50, rfl⟩
abbrev main_v38 : Ref sig .tc := ⟨.hbm, 51, rfl⟩
abbrev main_v39 : Ref sig .tc := ⟨.hbm, 52, rfl⟩
abbrev main_cst_9 : Ref sig .tc := ⟨.hbm, 53, rfl⟩
abbrev main_v40 : Ref sig .tc := ⟨.hbm, 54, rfl⟩
abbrev main_v41 : Ref sig .tc := ⟨.hbm, 55, rfl⟩
abbrev main_cst_10 : Ref sig .tc := ⟨.hbm, 56, rfl⟩
abbrev main_v42 : Ref sig .tc := ⟨.hbm, 57, rfl⟩
abbrev main_v43 : Ref sig .tc := ⟨.hbm, 58, rfl⟩
abbrev main_cst_11 : Ref sig .tc := ⟨.hbm, 59, rfl⟩
abbrev main_v44 : Ref sig .tc := ⟨.hbm, 60, rfl⟩
abbrev main_cst_12 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_13 : Ref sig .tc := ⟨.hbm, 69, rfl⟩
abbrev main_v52 : Ref sig .tc := ⟨.hbm, 70, rfl⟩
abbrev main_v53 : Ref sig .tc := ⟨.hbm, 71, rfl⟩
abbrev main_cst_14 : Ref sig .tc := ⟨.hbm, 72, rfl⟩
abbrev main_v54 : Ref sig .tc := ⟨.hbm, 73, rfl⟩
abbrev main_v55 : Ref sig .tc := ⟨.hbm, 74, rfl⟩
abbrev main_cst_15 : Ref sig .tc := ⟨.hbm, 75, rfl⟩
abbrev main_v56 : Ref sig .tc := ⟨.hbm, 76, rfl⟩
abbrev main_v57 : Ref sig .tc := ⟨.hbm, 77, rfl⟩
abbrev main_cst_16 : Ref sig .tc := ⟨.hbm, 78, rfl⟩
abbrev main_v58 : Ref sig .tc := ⟨.hbm, 79, rfl⟩
abbrev main_v59 : Ref sig .tc := ⟨.hbm, 80, rfl⟩
abbrev main_cst_17 : Ref sig .tc := ⟨.hbm, 81, rfl⟩
abbrev main_v60 : Ref sig .tc := ⟨.hbm, 82, rfl⟩
abbrev main_cst_18 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_19 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_20 : Ref sig .tc := ⟨.hbm, 96, rfl⟩
abbrev main_v72 : Ref sig .tc := ⟨.hbm, 97, rfl⟩
abbrev main_cst_21 : Ref sig .tc := ⟨.hbm, 98, rfl⟩
abbrev main_v73 : Ref sig .tc := ⟨.hbm, 99, rfl⟩
abbrev main_v74 : Ref sig .tc := ⟨.hbm, 100, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x128_S128x8192_1_0 : S8192x128.Transposes [1, 0] S128x8192
  bcast_S_S8192x8192 : S_.BroadcastsInDim S8192x8192 (![] : Fin 0 → Fin S8192x8192.rank)
  reducesTo_S8192x16_S8192_d1 : S8192x16.ReducesTo [1] S8192
  transposes_S8192x16_S16x8192_1_0 : S8192x16.Transposes [1, 0] S16x8192
  reducesTo_S8192x8192_S8192_d1 : S8192x8192.ReducesTo [1] S8192
  bcast_S_S8192x1 : S_.BroadcastsInDim S8192x1 (![] : Fin 0 → Fin S8192x1.rank)
  reducesTo_S8192x8192_S8192_d0 : S8192x8192.ReducesTo [0] S8192
  bcast_S_S1x8192 : S_.BroadcastsInDim S1x8192 (![] : Fin 0 → Fin S1x8192.rank)
  reducesTo_S8192x8192_S_d0_1 : S8192x8192.ReducesTo [0, 1] S_
  reducesTo_S128_S_d0 : S128.ReducesTo [0] S_
  dot_S8192x128_S128x8192_S8192x8192_1_0_0_1_n_n_wf : DotDims.WF S8192x128 S128x8192 S8192x8192 [1] [0] [0] [1] [] []
  dot_S8192x16_S16x8192_S8192x8192_1_0_0_1_n_n_wf : DotDims.WF S8192x16 S16x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf
def dot_S8192x16_S16x8192_S8192x8192_1_0_0_1_n_n : DotDims S8192x16 S16x8192 S8192x8192 where
  lhsContracting := [1]
  rhsContracting := [0]
  lhsNonContracting := [0]
  rhsNonContracting := [1]
  lhsBatch := []
  rhsBatch := []
  wf := dot_S8192x16_S16x8192_S8192x8192_1_0_0_1_n_n_wf

class Facts : Prop extends Facts₀ where

variable [Facts]
-- ==== Proof.BitsBody.lean ====
/-
  The kernel region, point by point. At a grid point the body is handed eight input blocks — a 128-row block of x and
  all of x, the squared norms of those rows as a column and of all rows as a row, and the same four for y — and
  leaves three 128×1 columns: the row sums of exp(−max(‖xᵢ‖² + ‖xⱼ‖² − 2 xᵢ·xⱼ, 0)/128) over all j, the same for y
  with 32 in place of 128, and the row sums of the product of the two exponentials. This module states what each
  output block holds after the body as one store over the body's arithmetic of the input blocks, proves the body's
  triple, and packages it as the pipeline's data: every input block is found in its buffer at every point, and the
  body meets the pipeline's obligation at every point. Two pairs of input windows read one array each (the 128-row
  block and the whole of x; the same for y): each window of a pair holds half of the array's share.
-/
import proofs.«104605_j13073880449542_2_alg».proof.Proof.Gen.Kernel.Launch
import proofs.«104605_j13073880449542_2_alg».proof.Proof.Gen.Kernel.Skeleton
import proofs.«104605_j13073880449542_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, whether the point fetched it or the block index
    has not moved since it was fetched. -/
theorem heldBlock_0_of {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- Input window 1's current buffer holds its block at every point, whether the point fetched it or the block index
    has not moved since it was fetched. -/
theorem heldBlock_1_of {c : Dev nD} (dat : Dat τ (Elt F) Unit ℕ (UR sig nD τ) ℕ cfg0 c) (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
/-- Input window 2's current buffer holds its block at every point, whether the point fetched it or the block index
    has not moved since it was fetched. -/
theorem heldBlock_2_of {c : Dev nD} (dat : Dat τ (Elt F) Unit ℕ (UR sig nD τ) ℕ cfg0 c) (hA : dat.A 2 = V c (Pipeline.arrRef spec0 2))
    (hafter : ∀ t, dat.after 2 t = blockAt V c 2 t) (t : Fin cfg0.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
/-- Input window 3's current buffer holds its block at every point, whether the point fetched it or the block index
    has not moved since it was fetched. -/
theorem heldBlock_3_of {c : Dev nD} (dat : Dat τ (Elt F) Unit ℕ (UR sig nD τ) ℕ cfg0 c) (hA : dat.A 3 = V c (Pipeline.arrRef spec0 3))
    (hafter : ∀ t, dat.after 3 t = blockAt V c 3 t) (t : Fin cfg0.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
/-- Input window 4's current buffer holds its block at every point, whether the point fetched it or the block index
    has not moved since it was fetched. -/
theorem heldBlock_4_of {c : Dev nD} (dat : Dat τ (Elt F) Unit ℕ (UR sig nD τ) ℕ cfg0 c) (hA : dat.A 4 = V c (Pipeline.arrRef spec0 4))
    (hafter : ∀ t, dat.after 4 t = blockAt V c 4 t) (t : Fin cfg0.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
/-- Input window 5's current buffer holds its block at every point, whether the point fetched it or the block index
    has not moved since it was fetched. -/
theorem heldBlock_5_of {c : Dev nD} (dat : Dat τ (Elt F) Unit ℕ (UR sig nD τ) ℕ cfg0 c) (hA : dat.A 5 = V c (Pipeline.arrRef spec0 5))
    (hafter : ∀ t, dat.after 5 t = blockAt V c 5 t) (t : Fin cfg0.N) (d) : dat.before 5 t d = blockAt V c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)
/-- Input window 6's current buffer holds its block at every point, whether the point fetched it or the block index
    has not moved since it was fetched. -/
theorem heldBlock_6_of {c : Dev nD} (dat : Dat τ (Elt F) Unit ℕ (UR sig nD τ) ℕ cfg0 c) (hA : dat.A 6 = V c (Pipeline.arrRef spec0 6))
    (hafter : ∀ t, dat.after 6 t = blockAt V c 6 t) (t : Fin cfg0.N) (d) : dat.before 6 t d = blockAt V c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)
/-- Input window 7's current buffer holds its block at every point, whether the point fetched it or the block index
    has not moved since it was fetched. -/
theorem heldBlock_7_of {c : Dev nD} (dat : Dat τ (Elt F) Unit ℕ (UR sig nD τ) ℕ cfg0 c) (hA : dat.A 7 = V c (Pipeline.arrRef spec0 7))
    (hafter : ∀ t, dat.after 7 t = blockAt V c 7 t) (t : Fin cfg0.N) (d) : dat.before 7 t d = blockAt V c 7 t :=
  (dat.before_in_eq_fetched 7 rfl (fun _ => rfl) (fun _ _ _ => rfl) (fun t => by rw [hafter]; unfold Dat.blockOf blockAt; rw [hA]; try rfl) t d).trans
    (by unfold Dat.fetched Dat.blockOf blockAt; rw [hA]; try rfl)

/-! ## The body's accesses: every load and store is of a whole buffer -/

abbrev whole_S128x128 : Rect S128x128 := Rect.unit (s := S128x128) ![0, 0] S128x128.size inb_S128x128_S128x128_0_0
abbrev whole_S8192x128 : Rect S8192x128 := Rect.unit (s := S8192x128) ![0, 0] S8192x128.size inb_S8192x128_S8192x128_0_0
abbrev whole_S128x1 : Rect S128x1 := Rect.unit (s := S128x1) ![0, 0] S128x1.size inb_S128x1_S128x1_0_0
abbrev whole_S1x8192 : Rect S1x8192 := Rect.unit (s := S1x8192) ![0, 0] S1x8192.size inb_S1x8192_S1x8192_0_0
abbrev whole_S128x16 : Rect S128x16 := Rect.unit (s := S128x16) ![0, 0] S128x16.size inb_S128x16_S128x16_0_0
abbrev whole_S8192x16 : Rect S8192x16 := Rect.unit (s := S8192x16) ![0, 0] S8192x16.size inb_S8192x16_S8192x16_0_0

/-! ## What the body leaves in each output block -/

/-- The row sums of the x exponentials: one store of the whole block. -/
def rowSumsX (x0 : Vec F S128x128 .bf16) (x1 : Vec F S8192x128 .bf16) (x2 : Vec F S128x1 .f32) (x3 : Vec F S1x8192 .f32) : Vec F S128x1 .f32 :=
  View.canon [⟨whole_S128x1, k0_pay5 (View.ld x0 whole_S128x128) (View.ld x1 whole_S8192x128) (View.ld x2 whole_S128x1) (View.ld x3 whole_S1x8192)⟩]

/-- The row sums of the y exponentials: one store of the whole block. -/
def rowSumsY (x4 : Vec F S128x16 .bf16) (x5 : Vec F S8192x16 .bf16) (x6 : Vec F S128x1 .f32) (x7 : Vec F S1x8192 .f32) : Vec F S128x1 .f32 :=
  View.canon [⟨whole_S128x1, k0_pay2 (k0_pay6 (View.ld x4 whole_S128x16) (View.ld x5 whole_S8192x16)) (k0_pay7 (View.ld x6 whole_S128x1)) (k0_pay8 (View.ld x7 whole_S1x8192))⟩]

/-- The row sums of the products of the two exponentials: one store of the whole block. -/
def rowSumsXY (x0 : Vec F S128x128 .bf16) (x1 : Vec F S8192x128 .bf16) (x2 : Vec F S128x1 .f32) (x3 : Vec F S1x8192 .f32) (x4 : Vec F S128x16 .bf16) (x5 : Vec F S8192x16 .bf16) (x6 : Vec F S128x1 .f32) (x7 : Vec F S1x8192 .f32) : Vec F S128x1 .f32 :=
  View.canon [⟨whole_S128x1, k0_pay3 (k0_pay4 (View.ld x0 whole_S128x128) (View.ld x1 whole_S8192x128) (View.ld x2 whole_S128x1) (View.ld x3 whole_S1x8192)) (k0_pay6 (View.ld x4 whole_S128x16) (View.ld x5 whole_S8192x16)) (k0_pay7 (View.ld x6 whole_S128x1)) (k0_pay8 (View.ld x7 whole_S1x8192))⟩]

/-- A store of the whole block covers it. -/
theorem whole_covers (p0 : Vec F S128x1 .f32) (y : S128x1.Idx) :
    ∃ pc ∈ ([⟨whole_S128x1, p0⟩] : List (View.Piece (Elt F) S128x1 .f32)), y ∈ pc.1.set :=
  View.cover_of_tiled [⟨whole_S128x1, p0⟩] S128x1.size (by rfl) y

/-! ## The body's triple -/

set_option maxHeartbeats 4000000 in
/-- The body on whole buffers, the inputs' at contents `xW` and the outputs' at anything, runs to the continuation
    holding the inputs' as they were and the three outputs' at the row sums of the inputs. -/
theorem body_triple (c : Dev nD) (E : Set ℕ) (i : grid0.Coords) (arg1 : Memref sig .tc .vmem S128x128 .bf16) (harg1 : arg1.IsWhole) (arg2 : Memref sig .tc .vmem S8192x128 .bf16) (harg2 : arg2.IsWhole) (arg3 : Memref sig .tc .vmem S128x1 .f32) (harg3 : arg3.IsWhole) (arg4 : Memref sig .tc .vmem S1x8192 .f32) (harg4 : arg4.IsWhole) (arg5 : Memref sig .tc .vmem S128x16 .bf16) (harg5 : arg5.IsWhole) (arg6 : Memref sig .tc .vmem S8192x16 .bf16) (harg6 : arg6.IsWhole) (arg7 : Memref sig .tc .vmem S128x1 .f32) (harg7 : arg7.IsWhole) (arg8 : Memref sig .tc .vmem S1x8192 .f32) (harg8 : arg8.IsWhole) (arg9 : Memref sig .tc .vmem S128x1 .f32) (harg9 : arg9.IsWhole) (arg10 : Memref sig .tc .vmem S128x1 .f32) (harg10 : arg10.IsWhole) (arg11 : Memref sig .tc .vmem S128x1 .f32) (harg11 : arg11.IsWhole)
    (x0 : Vec F S128x128 .bf16) (x1 : Vec F S8192x128 .bf16) (x2 : Vec F S128x1 .f32) (x3 : Vec F S1x8192 .f32) (x4 : Vec F S128x16 .bf16) (x5 : Vec F S8192x16 .bf16) (x6 : Vec F S128x1 .f32) (x7 : Vec F S1x8192 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (rowSumsX x0 x1 x2 x3) ∗ owns (c : Thread nD τ) arg10 fullShare (rowSumsY x4 x5 x6 x7) ∗ owns (c : Thread nD τ) arg11 fullShare (rowSumsXY x0 x1 x2 x3 x4 x5 x6 x7)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11) K := by
  simp only [cc0__fused_kernel_eq_skeleton]; unfold cc0__fused_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (whole_covers _)
  isplitl [H9]
  · iexists _; isplitr
    swap; · iexact H9
    ipureintro
    try dsimp only
    exact View.read_writes_eq_canon _ _ _ (whole_covers _)
  iexists _; isplitr
  swap; · iexact H10
  ipureintro
  try dsimp only
  exact View.read_writes_eq_canon _ _ _ (whole_covers _)

/-! ## The pipeline's data -/

/-- The data of the pipeline on core `c`: the arrays as the region finds them; after the body at point `t` each
    input's buffer at its block and each output's at the row sums of the input blocks; the invariant is the core's
    scoped rest and generator register, untouched; nothing owed. The two windows that read x's array hold half of
    its share each, and so do the two that read y's. -/
def regionData (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => blockAt V c 5 t
    | ⟨6, _⟩ => blockAt V c 6 t
    | ⟨7, _⟩ => blockAt V c 7 t
    | ⟨8, _⟩ => rowSumsX (blockAt V c 0 t) (blockAt V c 1 t) (blockAt V c 2 t) (blockAt V c 3 t)
    | ⟨9, _⟩ => rowSumsY (blockAt V c 4 t) (blockAt V c 5 t) (blockAt V c 6 t) (blockAt V c 7 t)
    | ⟨10, _⟩ => rowSumsXY (blockAt V c 0 t) (blockAt V c 1 t) (blockAt V c 2 t) (blockAt V c 3 t) (blockAt V c 4 t) (blockAt V c 5 t) (blockAt V c 6 t) (blockAt V c 7 t)
  Φ _ := Pipeline.ΦA spec0 c
  q w := match w with
    | ⟨0, _⟩ => fullShare.left
    | ⟨1, _⟩ => fullShare.right
    | ⟨4, _⟩ => fullShare.left
    | ⟨5, _⟩ => fullShare.right
    | _ => fullShare
  owed _ := 0

theorem regionData_A (c : Dev nD) (w : Fin cfg0.W) : (regionData V c).A w = V c (Pipeline.arrRef spec0 w) := by
  dsimp only [regionData]

theorem after_0 (c : Dev nD) (t : Fin cfg0.N) : (regionData V c).after 0 t = blockAt V c 0 t := by dsimp only [regionData]
theorem after_1 (c : Dev nD) (t : Fin cfg0.N) : (regionData V c).after 1 t = blockAt V c 1 t := by dsimp only [regionData]
theorem after_2 (c : Dev nD) (t : Fin cfg0.N) : (regionData V c).after 2 t = blockAt V c 2 t := by dsimp only [regionData]
theorem after_3 (c : Dev nD) (t : Fin cfg0.N) : (regionData V c).after 3 t = blockAt V c 3 t := by dsimp only [regionData]
theorem after_4 (c : Dev nD) (t : Fin cfg0.N) : (regionData V c).after 4 t = blockAt V c 4 t := by dsimp only [regionData]
theorem after_5 (c : Dev nD) (t : Fin cfg0.N) : (regionData V c).after 5 t = blockAt V c 5 t := by dsimp only [regionData]
theorem after_6 (c : Dev nD) (t : Fin cfg0.N) : (regionData V c).after 6 t = blockAt V c 6 t := by dsimp only [regionData]
theorem after_7 (c : Dev nD) (t : Fin cfg0.N) : (regionData V c).after 7 t = blockAt V c 7 t := by dsimp only [regionData]
theorem after_8 (c : Dev nD) (t : Fin cfg0.N) : (regionData V c).after 8 t = rowSumsX (blockAt V c 0 t) (blockAt V c 1 t) (blockAt V c 2 t) (blockAt V c 3 t) := by dsimp only [regionData]
theorem after_9 (c : Dev nD) (t : Fin cfg0.N) : (regionData V c).after 9 t = rowSumsY (blockAt V c 4 t) (blockAt V c 5 t) (blockAt V c 6 t) (blockAt V c 7 t) := by dsimp only [regionData]
theorem after_10 (c : Dev nD) (t : Fin cfg0.N) : (regionData V c).after 10 t = rowSumsXY (blockAt V c 0 t) (blockAt V c 1 t) (blockAt V c 2 t) (blockAt V c 3 t) (blockAt V c 4 t) (blockAt V c 5 t) (blockAt V c 6 t) (blockAt V c 7 t) := by dsimp only [regionData]

theorem heldBlock_0 (c : Dev nD) (t : Fin cfg0.N) (d) : (regionData V c).before 0 t d = blockAt V c 0 t :=
  heldBlock_0_of V (regionData V c) (regionData_A V c 0) (after_0 V c) t d
theorem heldBlock_1 (c : Dev nD) (t : Fin cfg0.N) (d) : (regionData V c).before 1 t d = blockAt V c 1 t :=
  heldBlock_1_of V (regionData V c) (regionData_A V c 1) (after_1 V c) t d
theorem heldBlock_2 (c : Dev nD) (t : Fin cfg0.N) (d) : (regionData V c).before 2 t d = blockAt V c 2 t :=
  heldBlock_2_of V (regionData V c) (regionData_A V c 2) (after_2 V c) t d
theorem heldBlock_3 (c : Dev nD) (t : Fin cfg0.N) (d) : (regionData V c).before 3 t d = blockAt V c 3 t :=
  heldBlock_3_of V (regionData V c) (regionData_A V c 3) (after_3 V c) t d
theorem heldBlock_4 (c : Dev nD) (t : Fin cfg0.N) (d) : (regionData V c).before 4 t d = blockAt V c 4 t :=
  heldBlock_4_of V (regionData V c) (regionData_A V c 4) (after_4 V c) t d
theorem heldBlock_5 (c : Dev nD) (t : Fin cfg0.N) (d) : (regionData V c).before 5 t d = blockAt V c 5 t :=
  heldBlock_5_of V (regionData V c) (regionData_A V c 5) (after_5 V c) t d
theorem heldBlock_6 (c : Dev nD) (t : Fin cfg0.N) (d) : (regionData V c).before 6 t d = blockAt V c 6 t :=
  heldBlock_6_of V (regionData V c) (regionData_A V c 6) (after_6 V c) t d
theorem heldBlock_7 (c : Dev nD) (t : Fin cfg0.N) (d) : (regionData V c).before 7 t d = blockAt V c 7 t :=
  heldBlock_7_of V (regionData V c) (regionData_A V c 7) (after_7 V c) t d

/-! ## The body obligation, at a generic point -/

/-- What the body is called with at point `t`, the windows one by one, -/
def bodyPre (c : Dev nD) (t : Fin cfg0.N) : sProp 𝕄 :=
  iprop((regionData V c).Φ t.castSucc ∗ (regionData V c).owesAt () t.castSucc
    ∗ (∃ d, owns (c : Thread nD τ) (st0_0 t) fullShare ((regionData V c).before 0 t d))
    ∗ (∃ d, owns (c : Thread nD τ) (st0_1 t) fullShare ((regionData V c).before 1 t d))
    ∗ (∃ d, owns (c : Thread nD τ) (st0_2 t) fullShare ((regionData V c).before 2 t d))
    ∗ (∃ d, owns (c : Thread nD τ) (st0_3 t) fullShare ((regionData V c).before 3 t d))
    ∗ (∃ d, owns (c : Thread nD τ) (st0_4 t) fullShare ((regionData V c).before 4 t d))
    ∗ (∃ d, owns (c : Thread nD τ) (st0_5 t) fullShare ((regionData V c).before 5 t d))
    ∗ (∃ d, owns (c : Thread nD τ) (st0_6 t) fullShare ((regionData V c).before 6 t d))
    ∗ (∃ d, owns (c : Thread nD τ) (st0_7 t) fullShare ((regionData V c).before 7 t d))
    ∗ (∃ d, owns (c : Thread nD τ) (st0_8 t) fullShare ((regionData V c).before 8 t d))
    ∗ (∃ d, owns (c : Thread nD τ) (st0_9 t) fullShare ((regionData V c).before 9 t d))
    ∗ (∃ d, owns (c : Thread nD τ) (st0_10 t) fullShare ((regionData V c).before 10 t d)))

/-- and what it returns. -/
def bodyPost (c : Dev nD) (t : Fin cfg0.N) : sProp 𝕄 :=
  iprop((regionData V c).Φ t.succ ∗ (regionData V c).owesAt () t.succ
    ∗ owns (c : Thread nD τ) (st0_0 t) fullShare ((regionData V c).after 0 t)
    ∗ owns (c : Thread nD τ) (st0_1 t) fullShare ((regionData V c).after 1 t)
    ∗ owns (c : Thread nD τ) (st0_2 t) fullShare ((regionData V c).after 2 t)
    ∗ owns (c : Thread nD τ) (st0_3 t) fullShare ((regionData V c).after 3 t)
    ∗ owns (c : Thread nD τ) (st0_4 t) fullShare ((regionData V c).after 4 t)
    ∗ owns (c : Thread nD τ) (st0_5 t) fullShare ((regionData V c).after 5 t)
    ∗ owns (c : Thread nD τ) (st0_6 t) fullShare ((regionData V c).after 6 t)
    ∗ owns (c : Thread nD τ) (st0_7 t) fullShare ((regionData V c).after 7 t)
    ∗ owns (c : Thread nD τ) (st0_8 t) fullShare ((regionData V c).after 8 t)
    ∗ owns (c : Thread nD τ) (st0_9 t) fullShare ((regionData V c).after 9 t)
    ∗ owns (c : Thread nD τ) (st0_10 t) fullShare ((regionData V c).after 10 t))

/-- The body at any point: the inputs' buffers hold their blocks, so the body's triple applies; the invariant and the
    core's debts pass through unread. -/
theorem body_at_point (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [heldBlock_0, heldBlock_1, heldBlock_2, heldBlock_3, heldBlock_4, heldBlock_5, heldBlock_6, heldBlock_7]
  rw [show (regionData V c).Φ t.succ = (regionData V c).Φ t.castSucc from rfl,
    show (regionData V c).owesAt () t.succ = (regionData V c).owesAt () t.castSucc from rfl,
    after_0, after_1, after_2, after_3, after_4, after_5, after_6, after_7, after_8, after_9, after_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (body_triple c Set.univ _ _ _ _ _ _ _ _ _ _ _ _ _ _ _ _ _ _ _ _ _ _ _ (blockAt V c 0 t) (blockAt V c 1 t) (blockAt V c 2 t) (blockAt V c 3 t) (blockAt V c 4 t) (blockAt V c 5 t) (blockAt V c 6 t) (blockAt V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The pipeline's body obligation, at every point. -/
theorem body_obligation (c : Dev nD) : BodyObligation (regionData (F := F) V c) (defs₀ (F := F)) Variants.none () Set.univ := fun t => by
  rw [bigSep_W0, bigSep_W0]
  exact body_at_point V c t

end Cert.Kernel.Region

end
-- ==== Proof.BitsShares.lean ====
/-
  The whole run. The program is twelve host operations (the casts of x and y, their squared row norms as a column and
  as a row), the kernel region over 64 row blocks, and twenty-three host operations that fold the three columns of
  row sums into the loss. The run is followed as the core's unscoped buffers at a named valuation at every boundary:
  the launch memory, then the first host stretch's results, then the same with the three output arrays at what the
  region's write-backs leave, then the second stretch's results. At the region's entry the arrays behind the windows
  are dealt to the windows — the array of x to its two windows at half shares, the same for y — and at its exit the
  halves are joined again.
-/
import proofs.«104605_j13073880449542_2_alg».proof.Proof.BitsBody

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The arrays behind the windows and the windows' shares of them -/

section Shares

variable (V : (c : Dev nD) → (b : Ref sig .tc) → Buf (Elt F) ((c : Thread nD τ).loc b))

theorem share_0 (c : Dev nD) : (regionData V c).share 0 = fullShare.left := rfl
theorem share_1 (c : Dev nD) : (regionData V c).share 1 = fullShare.right := rfl
theorem share_2 (c : Dev nD) : (regionData V c).share 2 = fullShare := rfl
theorem share_3 (c : Dev nD) : (regionData V c).share 3 = fullShare := rfl
theorem share_4 (c : Dev nD) : (regionData V c).share 4 = fullShare.left := rfl
theorem share_5 (c : Dev nD) : (regionData V c).share 5 = fullShare.right := rfl
theorem share_6 (c : Dev nD) : (regionData V c).share 6 = fullShare := rfl
theorem share_7 (c : Dev nD) : (regionData V c).share 7 = fullShare := rfl
theorem share_8 (c : Dev nD) : (regionData V c).share 8 = fullShare := rfl
theorem share_9 (c : Dev nD) : (regionData V c).share 9 = fullShare := rfl
theorem share_10 (c : Dev nD) : (regionData V c).share 10 = fullShare := rfl

/-- The nine distinct arrays behind the eleven windows. -/
theorem arrays_listed : (Finset.univ.image (Pipeline.arrRef spec0) : Finset (Ref sig .tc)) = ([main_v0, main_v6, main_v7, main_v1, main_v8, main_v9, main_v10_0, main_v10_1, main_v10_2] : List (Ref sig .tc)).toFinset := by decide

set_option maxHeartbeats 1000000 in
/-- The windows' arrays at contents read off a valuation `Vv`, window by window at its share, against the nine
    buffers behind them whole at the full share: the two halves of x's array are its whole, and so for y's. -/
theorem arrays_chain (c : Dev nD) (Vv : (b : Ref sig .tc) → Buf (Elt F) ((c : Thread nD τ).loc b))
    (Fw : (w : Fin cfg0.W) → Buf (Elt F) ((cfg0.win w).arr.view.loc (c : Thread nD τ)))
    (hF : ∀ w, Fw w = Vv (Pipeline.arrRef spec0 w)) :
    (regionData V c).arrays Fw
      = iprop((((c : Thread nD τ).loc main_v0) ↦{fullShare.left} Vv main_v0) ∗ (((c : Thread nD τ).loc main_v0) ↦{fullShare.right} Vv main_v0)
        ∗ (((c : Thread nD τ).loc main_v6) ↦{fullShare} Vv main_v6) ∗ (((c : Thread nD τ).loc main_v7) ↦{fullShare} Vv main_v7)
        ∗ (((c : Thread nD τ).loc main_v1) ↦{fullShare.left} Vv main_v1) ∗ (((c : Thread nD τ).loc main_v1) ↦{fullShare.right} Vv main_v1)
        ∗ (((c : Thread nD τ).loc main_v8) ↦{fullShare} Vv main_v8) ∗ (((c : Thread nD τ).loc main_v9) ↦{fullShare} Vv main_v9)
        ∗ (((c : Thread nD τ).loc main_v10_0) ↦{fullShare} Vv main_v10_0) ∗ (((c : Thread nD τ).loc main_v10_1) ↦{fullShare} Vv main_v10_1)
        ∗ (((c : Thread nD τ).loc main_v10_2) ↦{fullShare} Vv main_v10_2) : sProp 𝕄) := by
  unfold Dat.arrays
  rw [bigSep_W0]
  simp only [(arr_whole0 0).set_eq_univ, (arr_whole0 1).set_eq_univ, (arr_whole0 2).set_eq_univ, (arr_whole0 3).set_eq_univ,
    (arr_whole0 4).set_eq_univ, (arr_whole0 5).set_eq_univ, (arr_whole0 6).set_eq_univ, (arr_whole0 7).set_eq_univ,
    (arr_whole0 8).set_eq_univ, (arr_whole0 9).set_eq_univ, (arr_whole0 10).set_eq_univ]
  simp only [share_0, share_1, share_2, share_3, share_4, share_5, share_6, share_7, share_8, share_9, share_10, hF]

theorem arrBufs_chain (c : Dev nD) (Vv : (b : Ref sig .tc) → Buf (Elt F) ((c : Thread nD τ).loc b)) :
    (Pipeline.arrBufs spec0 c Vv : sProp 𝕄)
      = iprop((((c : Thread nD τ).loc main_v0) ↦{fullShare} Vv main_v0)
        ∗ (((c : Thread nD τ).loc main_v6) ↦{fullShare} Vv main_v6) ∗ (((c : Thread nD τ).loc main_v7) ↦{fullShare} Vv main_v7)
        ∗ (((c : Thread nD τ).loc main_v1) ↦{fullShare} Vv main_v1)
        ∗ (((c : Thread nD τ).loc main_v8) ↦{fullShare} Vv main_v8) ∗ (((c : Thread nD τ).loc main_v9) ↦{fullShare} Vv main_v9)
        ∗ (((c : Thread nD τ).loc main_v10_0) ↦{fullShare} Vv main_v10_0) ∗ (((c : Thread nD τ).loc main_v10_1) ↦{fullShare} Vv main_v10_1)
        ∗ (((c : Thread nD τ).loc main_v10_2) ↦{fullShare} Vv main_v10_2) : sProp 𝕄) := by
  unfold Pipeline.arrBufs
  rw [bigSep_eq_bigSepL_of_eq [main_v0, main_v6, main_v7, main_v1, main_v8, main_v9, main_v10_0, main_v10_1, main_v10_2] arrays_listed (by decide)]
  rfl

/-- Dealing the arrays to the windows. -/
theorem deal (c : Dev nD) (Vv : (b : Ref sig .tc) → Buf (Elt F) ((c : Thread nD τ).loc b))
    (Fw : (w : Fin cfg0.W) → Buf (Elt F) ((cfg0.win w).arr.view.loc (c : Thread nD τ)))
    (hF : ∀ w, Fw w = Vv (Pipeline.arrRef spec0 w)) :
    (Pipeline.arrBufs spec0 c Vv : sProp 𝕄) ⊢ (regionData V c).arrays Fw := by
  rw [arrays_chain V c Vv Fw hF, arrBufs_chain c Vv]
  iintro ⟨H0, H6, H7, H1, H8, H9, Ha, Hb, Hc⟩
  ihave Hs := (pointsTo_share (PosShare.mem_left_op_right fullShare)).1 $$ H0
  icases Hs with ⟨H0l, H0r⟩
  ihave Ht := (pointsTo_share (PosShare.mem_left_op_right fullShare)).1 $$ H1
  icases Ht with ⟨H1l, H1r⟩
  isplitl [H0l]; · iexact H0l
  isplitl [H0r]; · iexact H0r
  isplitl [H6]; · iexact H6
  isplitl [H7]; · iexact H7
  isplitl [H1l]; · iexact H1l
  isplitl [H1r]; · iexact H1r
  isplitl [H8]; · iexact H8
  isplitl [H9]; · iexact H9
  isplitl [Ha]; · iexact Ha
  isplitl [Hb]; · iexact Hb
  iexact Hc

/-- Gathering them back. -/
theorem gather (c : Dev nD) (Vv : (b : Ref sig .tc) → Buf (Elt F) ((c : Thread nD τ).loc b))
    (Fw : (w : Fin cfg0.W) → Buf (Elt F) ((cfg0.win w).arr.view.loc (c : Thread nD τ)))
    (hF : ∀ w, Fw w = Vv (Pipeline.arrRef spec0 w)) :
    (regionData V c).arrays Fw ⊢ (Pipeline.arrBufs spec0 c Vv : sProp 𝕄) := by
  rw [arrays_chain V c Vv Fw hF, arrBufs_chain c Vv]
  iintro ⟨H0l, H0r, H6, H7, H1l, H1r, H8, H9, Ha, Hb, Hc⟩
  isplitl [H0l H0r]
  · iapply (pointsTo_share (PosShare.mem_left_op_right fullShare)).2
    isplitl [H0l] <;> iassumption
  isplitl [H6]; · iexact H6
  isplitl [H7]; · iexact H7
  isplitl [H1l H1r]
  · iapply (pointsTo_share (PosShare.mem_left_op_right fullShare)).2
    isplitl [H1l] <;> iassumption
  isplitl [H8]; · iexact H8
  isplitl [H9]; · iexact H9
  isplitl [Ha]; · iexact Ha
  isplitl [Hb]; · iexact Hb
  iexact Hc

/-- ENTRY: the core's unscoped buffers at `V` are the windows' arrays at the entry contents and the rest. -/
theorem entry_split (c : Dev nD) :
    (unscopedBufs c (V c) : sProp 𝕄) ⊢ iprop((regionData V c).arrays ((regionData V c).arrAt · 0) ∗ Pipeline.unscopedRest spec0 c (V c)) := by
  rw [Pipeline.unscopedBufs_split₀ cfgs 0 winFacts₀0.arr_unscoped c (V c)]
  exact sep_mono (deal V c (V c) _ fun w => rfl) .rfl

/-- EXIT: the windows' arrays at contents `Fw` and the rest at `V` are the unscoped buffers at any valuation that has
    the arrays at `Fw` and agrees with `V` off them. -/
theorem exit_join (c : Dev nD) (V' : (b : Ref sig .tc) → Buf (Elt F) ((c : Thread nD τ).loc b))
    (Fw : (w : Fin cfg0.W) → Buf (Elt F) ((cfg0.win w).arr.view.loc (c : Thread nD τ)))
    (hF : ∀ w, Fw w = V' (Pipeline.arrRef spec0 w))
    (hrest : ∀ b, b ∉ Finset.univ.image (Pipeline.arrRef spec0) → V' b = V c b) :
    iprop((regionData V c).arrays Fw ∗ Pipeline.unscopedRest spec0 c (V c)) ⊢ (unscopedBufs c V' : sProp 𝕄) := by
  rw [Pipeline.unscopedBufs_split₀ cfgs 0 winFacts₀0.arr_unscoped c V']
  refine sep_mono (gather V c V' Fw hF) (Entails.of_eq ?_)
  unfold Pipeline.unscopedRest
  exact bigSep_congr fun b hb => by rw [hrest b (Finset.mem_sdiff.mp hb).2]

end Shares

end Cert.Kernel.Region

end
-- ==== Proof.BitsLaunch.lean ====
/-
  The launch: the program's run from any memory, its boundaries' contents named. Every weakly fair execution
  terminates without a fault, and the final memory holds, at every unscoped buffer, the second host stretch's results
  computed from the region's exit contents; in particular the three argument arrays end as they were launched.
-/
import proofs.«104605_j13073880449542_2_alg».proof.Proof.BitsShares

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch: the region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the region's exit: the three output arrays at what the write-backs leave, every other buffer as entered. -/
def W2 (c : Dev nD) : Valuation τ sig (Elt F) :=
  Function.update (Function.update (Function.update (W1 m ρ c)
    (Proc.devRef .tc main_v10_0) ((regionData (V1 m ρ) c).arrAt 8 cfg0.N))
    (Proc.devRef .tc main_v10_1) ((regionData (V1 m ρ) c).arrAt 9 cfg0.N))
    (Proc.devRef .tc main_v10_2) ((regionData (V1 m ρ) c).arrAt 10 cfg0.N)
abbrev V2 : (c : Dev nD) → (b : Ref sig .tc) → Buf (Elt F) ((c : Thread nD τ).loc b) := fun c b => W2 m ρ c b
/-- After the second host stretch: the end. -/
abbrev W3 : Dev nD → Valuation τ sig (Elt F) := fun c => StableHlo.after hostOps1 (W2 m ρ c)

theorem W2_out0 (c : Dev nD) : W2 m ρ c (Proc.devRef .tc main_v10_0) = (regionData (V1 m ρ) c).arrAt 8 cfg0.N := by
  unfold W2
  rw [Function.update_of_ne (StableHlo.devRef_ne_of_ne (by decide)), Function.update_of_ne (StableHlo.devRef_ne_of_ne (by decide)), Function.update_self]
theorem W2_out1 (c : Dev nD) : W2 m ρ c (Proc.devRef .tc main_v10_1) = (regionData (V1 m ρ) c).arrAt 9 cfg0.N := by
  unfold W2
  rw [Function.update_of_ne (StableHlo.devRef_ne_of_ne (by decide)), Function.update_self]
theorem W2_out2 (c : Dev nD) : W2 m ρ c (Proc.devRef .tc main_v10_2) = (regionData (V1 m ρ) c).arrAt 10 cfg0.N := by
  unfold W2
  rw [Function.update_self]
theorem W2_of_ne (c : Dev nD) (b : Ref sig .tc) (h0 : b ≠ main_v10_0) (h1 : b ≠ main_v10_1) (h2 : b ≠ main_v10_2) :
    W2 m ρ c (Proc.devRef .tc b) = W1 m ρ c (Proc.devRef .tc b) := by
  unfold W2
  rw [Function.update_of_ne (StableHlo.devRef_ne_of_ne h2), Function.update_of_ne (StableHlo.devRef_ne_of_ne h1), Function.update_of_ne (StableHlo.devRef_ne_of_ne h0)]

/-- At the region's exit each window's array holds what the pipeline leaves: an input's is never written. -/
theorem exit_arrays (c : Dev nD) (w : Fin cfg0.W) : (regionData (V1 m ρ) c).arrAt w cfg0.N = V2 m ρ c (Pipeline.arrRef spec0 w) := by
  match w with
  | ⟨0, _⟩ => exact ((regionData (V1 m ρ) c).arrAt_in 0 rfl _).trans (W2_of_ne m ρ c main_v0 (by decide) (by decide) (by decide)).symm
  | ⟨1, _⟩ => exact ((regionData (V1 m ρ) c).arrAt_in 1 rfl _).trans (W2_of_ne m ρ c main_v0 (by decide) (by decide) (by decide)).symm
  | ⟨2, _⟩ => exact ((regionData (V1 m ρ) c).arrAt_in 2 rfl _).trans (W2_of_ne m ρ c main_v6 (by decide) (by decide) (by decide)).symm
  | ⟨3, _⟩ => exact ((regionData (V1 m ρ) c).arrAt_in 3 rfl _).trans (W2_of_ne m ρ c main_v7 (by decide) (by decide) (by decide)).symm
  | ⟨4, _⟩ => exact ((regionData (V1 m ρ) c).arrAt_in 4 rfl _).trans (W2_of_ne m ρ c main_v1 (by decide) (by decide) (by decide)).symm
  | ⟨5, _⟩ => exact ((regionData (V1 m ρ) c).arrAt_in 5 rfl _).trans (W2_of_ne m ρ c main_v1 (by decide) (by decide) (by decide)).symm
  | ⟨6, _⟩ => exact ((regionData (V1 m ρ) c).arrAt_in 6 rfl _).trans (W2_of_ne m ρ c main_v8 (by decide) (by decide) (by decide)).symm
  | ⟨7, _⟩ => exact ((regionData (V1 m ρ) c).arrAt_in 7 rfl _).trans (W2_of_ne m ρ c main_v9 (by decide) (by decide) (by decide)).symm
  | ⟨8, _⟩ => exact (W2_out0 m ρ c).symm
  | ⟨9, _⟩ => exact (W2_out1 m ρ c).symm
  | ⟨10, _⟩ => exact (W2_out2 m ρ c).symm

/-- and every buffer that is no window's array holds what it held at entry. -/
theorem exit_rest (c : Dev nD) : ∀ b, b ∉ Finset.univ.image (Pipeline.arrRef spec0) → V2 m ρ c b = V1 m ρ c b := fun b hb =>
  W2_of_ne m ρ c b (fun e => hb (Finset.mem_image.mpr ⟨8, Finset.mem_univ _, e.symm⟩))
    (fun e => hb (Finset.mem_image.mpr ⟨9, Finset.mem_univ _, e.symm⟩)) (fun e => hb (Finset.mem_image.mpr ⟨10, Finset.mem_univ _, e.symm⟩))

/-! ### The arguments end as launched: no host operation writes one, and the region only reads them -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide) (by decide) (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide) (by decide) (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide) (by decide) (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-! ## The pipeline's data and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => regionData (V1 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's debts, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents, the generator register
    at some state. -/
abbrev Tₙ (c : Dev nD) : sProp 𝕄 := iprop(StableHlo.held (c : Thread nD τ) (Pipeline.ucRefs τ sig) (W3 m ρ c) ∗ ∃ r, prngReg c r)

/-! ## The region as a segment -/

set_option backward.isDefEq.respectTransparency.types false in
/-- The region over the thread state: entered from every unscoped buffer at the first stretch's results, left at the same
    with the output arrays written. Its arrays are dealt out of the unscoped buffers and gathered back at the exit
    contents; the generator register goes into the invariant and comes out; nothing owed; no semaphore of its own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := entry_split (V1 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit_join (V1 m ρ) c (V2 m ρ c) ((regionData (V1 m ρ) c).arrAt · cfg0.N) (exit_arrays m ρ c) (exit_rest m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing faulting,
    and the final memory holds at every unscoped buffer the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => (show iprop(StableHlo.held (c : Thread nD τ) (Pipeline.ucRefs τ sig) (W3 m ρ c) ∗ R c)
        ⊢ iprop(Tₙ m ρ c ∗ ∃ W, owes (c : Thread nD τ) (0 : CellTallies nD τ sig Unit) W) from by
      iintro ⟨Hh, Hp, HO⟩
      isplitr [HO]
      · isplitl [Hh]; · iexact Hh
        iexact Hp
      iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_main m ρ)

end Cert.Kernel.Region

end
-- ==== Proof.IdealBody.lean ====
/-
  The kernel region, point by point. At a grid point the body is handed eight input blocks — a 128-row block of x and
  all of x, the squared norms of those rows as a column and of all rows as a row, and the same four for y — and
  leaves three 128×1 columns: the row sums of exp(−max(‖xᵢ‖² + ‖xⱼ‖² − 2 xᵢ·xⱼ, 0)/128) over all j, the same for y
  with 32 in place of 128, and the row sums of the product of the two exponentials. This module states what each
  output block holds after the body as one store over the body's arithmetic of the input blocks, proves the body's
  triple, and packages it as the pipeline's data: every input block is found in its buffer at every point, and the
  body meets the pipeline's obligation at every point. Two pairs of input windows read one array each (the 128-row
  block and the whole of x; the same for y): each window of a pair holds half of the array's share.
-/
import proofs.«104605_j13073880449542_2_alg».proof.Proof.Gen.KernelIdeal.Launch
import proofs.«104605_j13073880449542_2_alg».proof.Proof.Gen.KernelIdeal.Skeleton
import proofs.«104605_j13073880449542_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, whether the point fetched it or the block index
    has not moved since it was fetched. -/
theorem heldBlock_0_of {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- Input window 1's current buffer holds its block at every point, whether the point fetched it or the block index
    has not moved since it was fetched. -/
theorem heldBlock_1_of {c : Dev nD} (dat : Dat τ (Elt F) Unit ℕ (UR sig nD τ) ℕ cfg0 c) (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
/-- Input window 2's current buffer holds its block at every point, whether the point fetched it or the block index
    has not moved since it was fetched. -/
theorem heldBlock_2_of {c : Dev nD} (dat : Dat τ (Elt F) Unit ℕ (UR sig nD τ) ℕ cfg0 c) (hA : dat.A 2 = V c (Pipeline.arrRef spec0 2))
    (hafter : ∀ t, dat.after 2 t = blockAt V c 2 t) (t : Fin cfg0.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
/-- Input window 3's current buffer holds its block at every point, whether the point fetched it or the block index
    has not moved since it was fetched. -/
theorem heldBlock_3_of {c : Dev nD} (dat : Dat τ (Elt F) Unit ℕ (UR sig nD τ) ℕ cfg0 c) (hA : dat.A 3 = V c (Pipeline.arrRef spec0 3))
    (hafter : ∀ t, dat.after 3 t = blockAt V c 3 t) (t : Fin cfg0.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
/-- Input window 4's current buffer holds its block at every point, whether the point fetched it or the block index
    has not moved since it was fetched. -/
theorem heldBlock_4_of {c : Dev nD} (dat : Dat τ (Elt F) Unit ℕ (UR sig nD τ) ℕ cfg0 c) (hA : dat.A 4 = V c (Pipeline.arrRef spec0 4))
    (hafter : ∀ t, dat.after 4 t = blockAt V c 4 t) (t : Fin cfg0.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
/-- Input window 5's current buffer holds its block at every point, whether the point fetched it or the block index
    has not moved since it was fetched. -/
theorem heldBlock_5_of {c : Dev nD} (dat : Dat τ (Elt F) Unit ℕ (UR sig nD τ) ℕ cfg0 c) (hA : dat.A 5 = V c (Pipeline.arrRef spec0 5))
    (hafter : ∀ t, dat.after 5 t = blockAt V c 5 t) (t : Fin cfg0.N) (d) : dat.before 5 t d = blockAt V c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)
/-- Input window 6's current buffer holds its block at every point, whether the point fetched it or the block index
    has not moved since it was fetched. -/
theorem heldBlock_6_of {c : Dev nD} (dat : Dat τ (Elt F) Unit ℕ (UR sig nD τ) ℕ cfg0 c) (hA : dat.A 6 = V c (Pipeline.arrRef spec0 6))
    (hafter : ∀ t, dat.after 6 t = blockAt V c 6 t) (t : Fin cfg0.N) (d) : dat.before 6 t d = blockAt V c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)
/-- Input window 7's current buffer holds its block at every point, whether the point fetched it or the block index
    has not moved since it was fetched. -/
theorem heldBlock_7_of {c : Dev nD} (dat : Dat τ (Elt F) Unit ℕ (UR sig nD τ) ℕ cfg0 c) (hA : dat.A 7 = V c (Pipeline.arrRef spec0 7))
    (hafter : ∀ t, dat.after 7 t = blockAt V c 7 t) (t : Fin cfg0.N) (d) : dat.before 7 t d = blockAt V c 7 t :=
  (dat.before_in_eq_fetched 7 rfl (fun _ => rfl) (fun _ _ _ => rfl) (fun t => by rw [hafter]; unfold Dat.blockOf blockAt; rw [hA]; try rfl) t d).trans
    (by unfold Dat.fetched Dat.blockOf blockAt; rw [hA]; try rfl)

/-! ## The body's accesses: every load and store is of a whole buffer -/

abbrev whole_S128x128 : Rect S128x128 := Rect.unit (s := S128x128) ![0, 0] S128x128.size inb_S128x128_S128x128_0_0
abbrev whole_S8192x128 : Rect S8192x128 := Rect.unit (s := S8192x128) ![0, 0] S8192x128.size inb_S8192x128_S8192x128_0_0
abbrev whole_S128x1 : Rect S128x1 := Rect.unit (s := S128x1) ![0, 0] S128x1.size inb_S128x1_S128x1_0_0
abbrev whole_S1x8192 : Rect S1x8192 := Rect.unit (s := S1x8192) ![0, 0] S1x8192.size inb_S1x8192_S1x8192_0_0
abbrev whole_S128x16 : Rect S128x16 := Rect.unit (s := S128x16) ![0, 0] S128x16.size inb_S128x16_S128x16_0_0
abbrev whole_S8192x16 : Rect S8192x16 := Rect.unit (s := S8192x16) ![0, 0] S8192x16.size inb_S8192x16_S8192x16_0_0

/-! ## What the body leaves in each output block -/

/-- The row sums of the x exponentials: one store of the whole block. -/
def rowSumsX (x0 : Vec F S128x128 .bf16) (x1 : Vec F S8192x128 .bf16) (x2 : Vec F S128x1 .f32) (x3 : Vec F S1x8192 .f32) : Vec F S128x1 .f32 :=
  View.canon [⟨whole_S128x1, k0_pay5 (View.ld x0 whole_S128x128) (View.ld x1 whole_S8192x128) (View.ld x2 whole_S128x1) (View.ld x3 whole_S1x8192)⟩]

/-- The row sums of the y exponentials: one store of the whole block. -/
def rowSumsY (x4 : Vec F S128x16 .bf16) (x5 : Vec F S8192x16 .bf16) (x6 : Vec F S128x1 .f32) (x7 : Vec F S1x8192 .f32) : Vec F S128x1 .f32 :=
  View.canon [⟨whole_S128x1, k0_pay2 (k0_pay6 (View.ld x4 whole_S128x16) (View.ld x5 whole_S8192x16)) (k0_pay7 (View.ld x6 whole_S128x1)) (k0_pay8 (View.ld x7 whole_S1x8192))⟩]

/-- The row sums of the products of the two exponentials: one store of the whole block. -/
def rowSumsXY (x0 : Vec F S128x128 .bf16) (x1 : Vec F S8192x128 .bf16) (x2 : Vec F S128x1 .f32) (x3 : Vec F S1x8192 .f32) (x4 : Vec F S128x16 .bf16) (x5 : Vec F S8192x16 .bf16) (x6 : Vec F S128x1 .f32) (x7 : Vec F S1x8192 .f32) : Vec F S128x1 .f32 :=
  View.canon [⟨whole_S128x1, k0_pay3 (k0_pay4 (View.ld x0 whole_S128x128) (View.ld x1 whole_S8192x128) (View.ld x2 whole_S128x1) (View.ld x3 whole_S1x8192)) (k0_pay6 (View.ld x4 whole_S128x16) (View.ld x5 whole_S8192x16)) (k0_pay7 (View.ld x6 whole_S128x1)) (k0_pay8 (View.ld x7 whole_S1x8192))⟩]

/-- A store of the whole block covers it. -/
theorem whole_covers (p0 : Vec F S128x1 .f32) (y : S128x1.Idx) :
    ∃ pc ∈ ([⟨whole_S128x1, p0⟩] : List (View.Piece (Elt F) S128x1 .f32)), y ∈ pc.1.set :=
  View.cover_of_tiled [⟨whole_S128x1, p0⟩] S128x1.size (by rfl) y

/-! ## The body's triple -/

set_option maxHeartbeats 4000000 in
/-- The body on whole buffers, the inputs' at contents `xW` and the outputs' at anything, runs to the continuation
    holding the inputs' as they were and the three outputs' at the row sums of the inputs. -/
theorem body_triple (c : Dev nD) (E : Set ℕ) (i : grid0.Coords) (arg1 : Memref sig .tc .vmem S128x128 .bf16) (harg1 : arg1.IsWhole) (arg2 : Memref sig .tc .vmem S8192x128 .bf16) (harg2 : arg2.IsWhole) (arg3 : Memref sig .tc .vmem S128x1 .f32) (harg3 : arg3.IsWhole) (arg4 : Memref sig .tc .vmem S1x8192 .f32) (harg4 : arg4.IsWhole) (arg5 : Memref sig .tc .vmem S128x16 .bf16) (harg5 : arg5.IsWhole) (arg6 : Memref sig .tc .vmem S8192x16 .bf16) (harg6 : arg6.IsWhole) (arg7 : Memref sig .tc .vmem S128x1 .f32) (harg7 : arg7.IsWhole) (arg8 : Memref sig .tc .vmem S1x8192 .f32) (harg8 : arg8.IsWhole) (arg9 : Memref sig .tc .vmem S128x1 .f32) (harg9 : arg9.IsWhole) (arg10 : Memref sig .tc .vmem S128x1 .f32) (harg10 : arg10.IsWhole) (arg11 : Memref sig .tc .vmem S128x1 .f32) (harg11 : arg11.IsWhole)
    (x0 : Vec F S128x128 .bf16) (x1 : Vec F S8192x128 .bf16) (x2 : Vec F S128x1 .f32) (x3 : Vec F S1x8192 .f32) (x4 : Vec F S128x16 .bf16) (x5 : Vec F S8192x16 .bf16) (x6 : Vec F S128x1 .f32) (x7 : Vec F S1x8192 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (rowSumsX x0 x1 x2 x3) ∗ owns (c : Thread nD τ) arg10 fullShare (rowSumsY x4 x5 x6 x7) ∗ owns (c : Thread nD τ) arg11 fullShare (rowSumsXY x0 x1 x2 x3 x4 x5 x6 x7)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11) K := by
  simp only [cc0__fused_kernel_eq_skeleton]; unfold cc0__fused_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (whole_covers _)
  isplitl [H9]
  · iexists _; isplitr
    swap; · iexact H9
    ipureintro
    try dsimp only
    exact View.read_writes_eq_canon _ _ _ (whole_covers _)
  iexists _; isplitr
  swap; · iexact H10
  ipureintro
  try dsimp only
  exact View.read_writes_eq_canon _ _ _ (whole_covers _)

/-! ## The pipeline's data -/

/-- The data of the pipeline on core `c`: the arrays as the region finds them; after the body at point `t` each
    input's buffer at its block and each output's at the row sums of the input blocks; the invariant is the core's
    scoped rest and generator register, untouched; nothing owed. The two windows that read x's array hold half of
    its share each, and so do the two that read y's. -/
def regionData (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => blockAt V c 5 t
    | ⟨6, _⟩ => blockAt V c 6 t
    | ⟨7, _⟩ => blockAt V c 7 t
    | ⟨8, _⟩ => rowSumsX (blockAt V c 0 t) (blockAt V c 1 t) (blockAt V c 2 t) (blockAt V c 3 t)
    | ⟨9, _⟩ => rowSumsY (blockAt V c 4 t) (blockAt V c 5 t) (blockAt V c 6 t) (blockAt V c 7 t)
    | ⟨10, _⟩ => rowSumsXY (blockAt V c 0 t) (blockAt V c 1 t) (blockAt V c 2 t) (blockAt V c 3 t) (blockAt V c 4 t) (blockAt V c 5 t) (blockAt V c 6 t) (blockAt V c 7 t)
  Φ _ := Pipeline.ΦA spec0 c
  q w := match w with
    | ⟨0, _⟩ => fullShare.left
    | ⟨1, _⟩ => fullShare.right
    | ⟨4, _⟩ => fullShare.left
    | ⟨5, _⟩ => fullShare.right
    | _ => fullShare
  owed _ := 0

theorem regionData_A (c : Dev nD) (w : Fin cfg0.W) : (regionData V c).A w = V c (Pipeline.arrRef spec0 w) := by
  dsimp only [regionData]

theorem after_0 (c : Dev nD) (t : Fin cfg0.N) : (regionData V c).after 0 t = blockAt V c 0 t := by dsimp only [regionData]
theorem after_1 (c : Dev nD) (t : Fin cfg0.N) : (regionData V c).after 1 t = blockAt V c 1 t := by dsimp only [regionData]
theorem after_2 (c : Dev nD) (t : Fin cfg0.N) : (regionData V c).after 2 t = blockAt V c 2 t := by dsimp only [regionData]
theorem after_3 (c : Dev nD) (t : Fin cfg0.N) : (regionData V c).after 3 t = blockAt V c 3 t := by dsimp only [regionData]
theorem after_4 (c : Dev nD) (t : Fin cfg0.N) : (regionData V c).after 4 t = blockAt V c 4 t := by dsimp only [regionData]
theorem after_5 (c : Dev nD) (t : Fin cfg0.N) : (regionData V c).after 5 t = blockAt V c 5 t := by dsimp only [regionData]
theorem after_6 (c : Dev nD) (t : Fin cfg0.N) : (regionData V c).after 6 t = blockAt V c 6 t := by dsimp only [regionData]
theorem after_7 (c : Dev nD) (t : Fin cfg0.N) : (regionData V c).after 7 t = blockAt V c 7 t := by dsimp only [regionData]
theorem after_8 (c : Dev nD) (t : Fin cfg0.N) : (regionData V c).after 8 t = rowSumsX (blockAt V c 0 t) (blockAt V c 1 t) (blockAt V c 2 t) (blockAt V c 3 t) := by dsimp only [regionData]
theorem after_9 (c : Dev nD) (t : Fin cfg0.N) : (regionData V c).after 9 t = rowSumsY (blockAt V c 4 t) (blockAt V c 5 t) (blockAt V c 6 t) (blockAt V c 7 t) := by dsimp only [regionData]
theorem after_10 (c : Dev nD) (t : Fin cfg0.N) : (regionData V c).after 10 t = rowSumsXY (blockAt V c 0 t) (blockAt V c 1 t) (blockAt V c 2 t) (blockAt V c 3 t) (blockAt V c 4 t) (blockAt V c 5 t) (blockAt V c 6 t) (blockAt V c 7 t) := by dsimp only [regionData]

theorem heldBlock_0 (c : Dev nD) (t : Fin cfg0.N) (d) : (regionData V c).before 0 t d = blockAt V c 0 t :=
  heldBlock_0_of V (regionData V c) (regionData_A V c 0) (after_0 V c) t d
theorem heldBlock_1 (c : Dev nD) (t : Fin cfg0.N) (d) : (regionData V c).before 1 t d = blockAt V c 1 t :=
  heldBlock_1_of V (regionData V c) (regionData_A V c 1) (after_1 V c) t d
theorem heldBlock_2 (c : Dev nD) (t : Fin cfg0.N) (d) : (regionData V c).before 2 t d = blockAt V c 2 t :=
  heldBlock_2_of V (regionData V c) (regionData_A V c 2) (after_2 V c) t d
theorem heldBlock_3 (c : Dev nD) (t : Fin cfg0.N) (d) : (regionData V c).before 3 t d = blockAt V c 3 t :=
  heldBlock_3_of V (regionData V c) (regionData_A V c 3) (after_3 V c) t d
theorem heldBlock_4 (c : Dev nD) (t : Fin cfg0.N) (d) : (regionData V c).before 4 t d = blockAt V c 4 t :=
  heldBlock_4_of V (regionData V c) (regionData_A V c 4) (after_4 V c) t d
theorem heldBlock_5 (c : Dev nD) (t : Fin cfg0.N) (d) : (regionData V c).before 5 t d = blockAt V c 5 t :=
  heldBlock_5_of V (regionData V c) (regionData_A V c 5) (after_5 V c) t d
theorem heldBlock_6 (c : Dev nD) (t : Fin cfg0.N) (d) : (regionData V c).before 6 t d = blockAt V c 6 t :=
  heldBlock_6_of V (regionData V c) (regionData_A V c 6) (after_6 V c) t d
theorem heldBlock_7 (c : Dev nD) (t : Fin cfg0.N) (d) : (regionData V c).before 7 t d = blockAt V c 7 t :=
  heldBlock_7_of V (regionData V c) (regionData_A V c 7) (after_7 V c) t d

/-! ## The body obligation, at a generic point -/

/-- What the body is called with at point `t`, the windows one by one, -/
def bodyPre (c : Dev nD) (t : Fin cfg0.N) : sProp 𝕄 :=
  iprop((regionData V c).Φ t.castSucc ∗ (regionData V c).owesAt () t.castSucc
    ∗ (∃ d, owns (c : Thread nD τ) (st0_0 t) fullShare ((regionData V c).before 0 t d))
    ∗ (∃ d, owns (c : Thread nD τ) (st0_1 t) fullShare ((regionData V c).before 1 t d))
    ∗ (∃ d, owns (c : Thread nD τ) (st0_2 t) fullShare ((regionData V c).before 2 t d))
    ∗ (∃ d, owns (c : Thread nD τ) (st0_3 t) fullShare ((regionData V c).before 3 t d))
    ∗ (∃ d, owns (c : Thread nD τ) (st0_4 t) fullShare ((regionData V c).before 4 t d))
    ∗ (∃ d, owns (c : Thread nD τ) (st0_5 t) fullShare ((regionData V c).before 5 t d))
    ∗ (∃ d, owns (c : Thread nD τ) (st0_6 t) fullShare ((regionData V c).before 6 t d))
    ∗ (∃ d, owns (c : Thread nD τ) (st0_7 t) fullShare ((regionData V c).before 7 t d))
    ∗ (∃ d, owns (c : Thread nD τ) (st0_8 t) fullShare ((regionData V c).before 8 t d))
    ∗ (∃ d, owns (c : Thread nD τ) (st0_9 t) fullShare ((regionData V c).before 9 t d))
    ∗ (∃ d, owns (c : Thread nD τ) (st0_10 t) fullShare ((regionData V c).before 10 t d)))

/-- and what it returns. -/
def bodyPost (c : Dev nD) (t : Fin cfg0.N) : sProp 𝕄 :=
  iprop((regionData V c).Φ t.succ ∗ (regionData V c).owesAt () t.succ
    ∗ owns (c : Thread nD τ) (st0_0 t) fullShare ((regionData V c).after 0 t)
    ∗ owns (c : Thread nD τ) (st0_1 t) fullShare ((regionData V c).after 1 t)
    ∗ owns (c : Thread nD τ) (st0_2 t) fullShare ((regionData V c).after 2 t)
    ∗ owns (c : Thread nD τ) (st0_3 t) fullShare ((regionData V c).after 3 t)
    ∗ owns (c : Thread nD τ) (st0_4 t) fullShare ((regionData V c).after 4 t)
    ∗ owns (c : Thread nD τ) (st0_5 t) fullShare ((regionData V c).after 5 t)
    ∗ owns (c : Thread nD τ) (st0_6 t) fullShare ((regionData V c).after 6 t)
    ∗ owns (c : Thread nD τ) (st0_7 t) fullShare ((regionData V c).after 7 t)
    ∗ owns (c : Thread nD τ) (st0_8 t) fullShare ((regionData V c).after 8 t)
    ∗ owns (c : Thread nD τ) (st0_9 t) fullShare ((regionData V c).after 9 t)
    ∗ owns (c : Thread nD τ) (st0_10 t) fullShare ((regionData V c).after 10 t))

/-- The body at any point: the inputs' buffers hold their blocks, so the body's triple applies; the invariant and the
    core's debts pass through unread. -/
theorem body_at_point (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [heldBlock_0, heldBlock_1, heldBlock_2, heldBlock_3, heldBlock_4, heldBlock_5, heldBlock_6, heldBlock_7]
  rw [show (regionData V c).Φ t.succ = (regionData V c).Φ t.castSucc from rfl,
    show (regionData V c).owesAt () t.succ = (regionData V c).owesAt () t.castSucc from rfl,
    after_0, after_1, after_2, after_3, after_4, after_5, after_6, after_7, after_8, after_9, after_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (body_triple c Set.univ _ _ _ _ _ _ _ _ _ _ _ _ _ _ _ _ _ _ _ _ _ _ _ (blockAt V c 0 t) (blockAt V c 1 t) (blockAt V c 2 t) (blockAt V c 3 t) (blockAt V c 4 t) (blockAt V c 5 t) (blockAt V c 6 t) (blockAt V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The pipeline's body obligation, at every point. -/
theorem body_obligation (c : Dev nD) : BodyObligation (regionData (F := F) V c) (defs₀ (F := F)) Variants.none () Set.univ := fun t => by
  rw [bigSep_W0, bigSep_W0]
  exact body_at_point V c t

end Cert.KernelIdeal.Region

end
-- ==== Proof.IdealShares.lean ====
/-
  The whole run. The program is twelve host operations (the casts of x and y, their squared row norms as a column and
  as a row), the kernel region over 64 row blocks, and twenty-three host operations that fold the three columns of
  row sums into the loss. The run is followed as the core's unscoped buffers at a named valuation at every boundary:
  the launch memory, then the first host stretch's results, then the same with the three output arrays at what the
  region's write-backs leave, then the second stretch's results. At the region's entry the arrays behind the windows
  are dealt to the windows — the array of x to its two windows at half shares, the same for y — and at its exit the
  halves are joined again.
-/
import proofs.«104605_j13073880449542_2_alg».proof.Proof.IdealBody

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The arrays behind the windows and the windows' shares of them -/

section Shares

variable (V : (c : Dev nD) → (b : Ref sig .tc) → Buf (Elt F) ((c : Thread nD τ).loc b))

theorem share_0 (c : Dev nD) : (regionData V c).share 0 = fullShare.left := rfl
theorem share_1 (c : Dev nD) : (regionData V c).share 1 = fullShare.right := rfl
theorem share_2 (c : Dev nD) : (regionData V c).share 2 = fullShare := rfl
theorem share_3 (c : Dev nD) : (regionData V c).share 3 = fullShare := rfl
theorem share_4 (c : Dev nD) : (regionData V c).share 4 = fullShare.left := rfl
theorem share_5 (c : Dev nD) : (regionData V c).share 5 = fullShare.right := rfl
theorem share_6 (c : Dev nD) : (regionData V c).share 6 = fullShare := rfl
theorem share_7 (c : Dev nD) : (regionData V c).share 7 = fullShare := rfl
theorem share_8 (c : Dev nD) : (regionData V c).share 8 = fullShare := rfl
theorem share_9 (c : Dev nD) : (regionData V c).share 9 = fullShare := rfl
theorem share_10 (c : Dev nD) : (regionData V c).share 10 = fullShare := rfl

/-- The nine distinct arrays behind the eleven windows. -/
theorem arrays_listed : (Finset.univ.image (Pipeline.arrRef spec0) : Finset (Ref sig .tc)) = ([main_v0, main_v6, main_v7, main_v1, main_v8, main_v9, main_v10_0, main_v10_1, main_v10_2] : List (Ref sig .tc)).toFinset := by decide

set_option maxHeartbeats 1000000 in
/-- The windows' arrays at contents read off a valuation `Vv`, window by window at its share, against the nine
    buffers behind them whole at the full share: the two halves of x's array are its whole, and so for y's. -/
theorem arrays_chain (c : Dev nD) (Vv : (b : Ref sig .tc) → Buf (Elt F) ((c : Thread nD τ).loc b))
    (Fw : (w : Fin cfg0.W) → Buf (Elt F) ((cfg0.win w).arr.view.loc (c : Thread nD τ)))
    (hF : ∀ w, Fw w = Vv (Pipeline.arrRef spec0 w)) :
    (regionData V c).arrays Fw
      = iprop((((c : Thread nD τ).loc main_v0) ↦{fullShare.left} Vv main_v0) ∗ (((c : Thread nD τ).loc main_v0) ↦{fullShare.right} Vv main_v0)
        ∗ (((c : Thread nD τ).loc main_v6) ↦{fullShare} Vv main_v6) ∗ (((c : Thread nD τ).loc main_v7) ↦{fullShare} Vv main_v7)
        ∗ (((c : Thread nD τ).loc main_v1) ↦{fullShare.left} Vv main_v1) ∗ (((c : Thread nD τ).loc main_v1) ↦{fullShare.right} Vv main_v1)
        ∗ (((c : Thread nD τ).loc main_v8) ↦{fullShare} Vv main_v8) ∗ (((c : Thread nD τ).loc main_v9) ↦{fullShare} Vv main_v9)
        ∗ (((c : Thread nD τ).loc main_v10_0) ↦{fullShare} Vv main_v10_0) ∗ (((c : Thread nD τ).loc main_v10_1) ↦{fullShare} Vv main_v10_1)
        ∗ (((c : Thread nD τ).loc main_v10_2) ↦{fullShare} Vv main_v10_2) : sProp 𝕄) := by
  unfold Dat.arrays
  rw [bigSep_W0]
  simp only [(arr_whole0 0).set_eq_univ, (arr_whole0 1).set_eq_univ, (arr_whole0 2).set_eq_univ, (arr_whole0 3).set_eq_univ,
    (arr_whole0 4).set_eq_univ, (arr_whole0 5).set_eq_univ, (arr_whole0 6).set_eq_univ, (arr_whole0 7).set_eq_univ,
    (arr_whole0 8).set_eq_univ, (arr_whole0 9).set_eq_univ, (arr_whole0 10).set_eq_univ]
  simp only [share_0, share_1, share_2, share_3, share_4, share_5, share_6, share_7, share_8, share_9, share_10, hF]

theorem arrBufs_chain (c : Dev nD) (Vv : (b : Ref sig .tc) → Buf (Elt F) ((c : Thread nD τ).loc b)) :
    (Pipeline.arrBufs spec0 c Vv : sProp 𝕄)
      = iprop((((c : Thread nD τ).loc main_v0) ↦{fullShare} Vv main_v0)
        ∗ (((c : Thread nD τ).loc main_v6) ↦{fullShare} Vv main_v6) ∗ (((c : Thread nD τ).loc main_v7) ↦{fullShare} Vv main_v7)
        ∗ (((c : Thread nD τ).loc main_v1) ↦{fullShare} Vv main_v1)
        ∗ (((c : Thread nD τ).loc main_v8) ↦{fullShare} Vv main_v8) ∗ (((c : Thread nD τ).loc main_v9) ↦{fullShare} Vv main_v9)
        ∗ (((c : Thread nD τ).loc main_v10_0) ↦{fullShare} Vv main_v10_0) ∗ (((c : Thread nD τ).loc main_v10_1) ↦{fullShare} Vv main_v10_1)
        ∗ (((c : Thread nD τ).loc main_v10_2) ↦{fullShare} Vv main_v10_2) : sProp 𝕄) := by
  unfold Pipeline.arrBufs
  rw [bigSep_eq_bigSepL_of_eq [main_v0, main_v6, main_v7, main_v1, main_v8, main_v9, main_v10_0, main_v10_1, main_v10_2] arrays_listed (by decide)]
  rfl

/-- Dealing the arrays to the windows. -/
theorem deal (c : Dev nD) (Vv : (b : Ref sig .tc) → Buf (Elt F) ((c : Thread nD τ).loc b))
    (Fw : (w : Fin cfg0.W) → Buf (Elt F) ((cfg0.win w).arr.view.loc (c : Thread nD τ)))
    (hF : ∀ w, Fw w = Vv (Pipeline.arrRef spec0 w)) :
    (Pipeline.arrBufs spec0 c Vv : sProp 𝕄) ⊢ (regionData V c).arrays Fw := by
  rw [arrays_chain V c Vv Fw hF, arrBufs_chain c Vv]
  iintro ⟨H0, H6, H7, H1, H8, H9, Ha, Hb, Hc⟩
  ihave Hs := (pointsTo_share (PosShare.mem_left_op_right fullShare)).1 $$ H0
  icases Hs with ⟨H0l, H0r⟩
  ihave Ht := (pointsTo_share (PosShare.mem_left_op_right fullShare)).1 $$ H1
  icases Ht with ⟨H1l, H1r⟩
  isplitl [H0l]; · iexact H0l
  isplitl [H0r]; · iexact H0r
  isplitl [H6]; · iexact H6
  isplitl [H7]; · iexact H7
  isplitl [H1l]; · iexact H1l
  isplitl [H1r]; · iexact H1r
  isplitl [H8]; · iexact H8
  isplitl [H9]; · iexact H9
  isplitl [Ha]; · iexact Ha
  isplitl [Hb]; · iexact Hb
  iexact Hc

/-- Gathering them back. -/
theorem gather (c : Dev nD) (Vv : (b : Ref sig .tc) → Buf (Elt F) ((c : Thread nD τ).loc b))
    (Fw : (w : Fin cfg0.W) → Buf (Elt F) ((cfg0.win w).arr.view.loc (c : Thread nD τ)))
    (hF : ∀ w, Fw w = Vv (Pipeline.arrRef spec0 w)) :
    (regionData V c).arrays Fw ⊢ (Pipeline.arrBufs spec0 c Vv : sProp 𝕄) := by
  rw [arrays_chain V c Vv Fw hF, arrBufs_chain c Vv]
  iintro ⟨H0l, H0r, H6, H7, H1l, H1r, H8, H9, Ha, Hb, Hc⟩
  isplitl [H0l H0r]
  · iapply (pointsTo_share (PosShare.mem_left_op_right fullShare)).2
    isplitl [H0l] <;> iassumption
  isplitl [H6]; · iexact H6
  isplitl [H7]; · iexact H7
  isplitl [H1l H1r]
  · iapply (pointsTo_share (PosShare.mem_left_op_right fullShare)).2
    isplitl [H1l] <;> iassumption
  isplitl [H8]; · iexact H8
  isplitl [H9]; · iexact H9
  isplitl [Ha]; · iexact Ha
  isplitl [Hb]; · iexact Hb
  iexact Hc

/-- ENTRY: the core's unscoped buffers at `V` are the windows' arrays at the entry contents and the rest. -/
theorem entry_split (c : Dev nD) :
    (unscopedBufs c (V c) : sProp 𝕄) ⊢ iprop((regionData V c).arrays ((regionData V c).arrAt · 0) ∗ Pipeline.unscopedRest spec0 c (V c)) := by
  rw [Pipeline.unscopedBufs_split₀ cfgs 0 winFacts₀0.arr_unscoped c (V c)]
  exact sep_mono (deal V c (V c) _ fun w => rfl) .rfl

/-- EXIT: the windows' arrays at contents `Fw` and the rest at `V` are the unscoped buffers at any valuation that has
    the arrays at `Fw` and agrees with `V` off them. -/
theorem exit_join (c : Dev nD) (V' : (b : Ref sig .tc) → Buf (Elt F) ((c : Thread nD τ).loc b))
    (Fw : (w : Fin cfg0.W) → Buf (Elt F) ((cfg0.win w).arr.view.loc (c : Thread nD τ)))
    (hF : ∀ w, Fw w = V' (Pipeline.arrRef spec0 w))
    (hrest : ∀ b, b ∉ Finset.univ.image (Pipeline.arrRef spec0) → V' b = V c b) :
    iprop((regionData V c).arrays Fw ∗ Pipeline.unscopedRest spec0 c (V c)) ⊢ (unscopedBufs c V' : sProp 𝕄) := by
  rw [Pipeline.unscopedBufs_split₀ cfgs 0 winFacts₀0.arr_unscoped c V']
  refine sep_mono (gather V c V' Fw hF) (Entails.of_eq ?_)
  unfold Pipeline.unscopedRest
  exact bigSep_congr fun b hb => by rw [hrest b (Finset.mem_sdiff.mp hb).2]

end Shares

end Cert.KernelIdeal.Region

end
-- ==== Proof.IdealLaunch.lean ====
/-
  The launch: the program's run from any memory, its boundaries' contents named. Every weakly fair execution
  terminates without a fault, and the final memory holds, at every unscoped buffer, the second host stretch's results
  computed from the region's exit contents; in particular the three argument arrays end as they were launched.
-/
import proofs.«104605_j13073880449542_2_alg».proof.Proof.IdealShares

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch: the region's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the region's exit: the three output arrays at what the write-backs leave, every other buffer as entered. -/
def W2 (c : Dev nD) : Valuation τ sig (Elt F) :=
  Function.update (Function.update (Function.update (W1 m ρ c)
    (Proc.devRef .tc main_v10_0) ((regionData (V1 m ρ) c).arrAt 8 cfg0.N))
    (Proc.devRef .tc main_v10_1) ((regionData (V1 m ρ) c).arrAt 9 cfg0.N))
    (Proc.devRef .tc main_v10_2) ((regionData (V1 m ρ) c).arrAt 10 cfg0.N)
abbrev V2 : (c : Dev nD) → (b : Ref sig .tc) → Buf (Elt F) ((c : Thread nD τ).loc b) := fun c b => W2 m ρ c b
/-- After the second host stretch: the end. -/
abbrev W3 : Dev nD → Valuation τ sig (Elt F) := fun c => StableHlo.after hostOps1 (W2 m ρ c)

theorem W2_out0 (c : Dev nD) : W2 m ρ c (Proc.devRef .tc main_v10_0) = (regionData (V1 m ρ) c).arrAt 8 cfg0.N := by
  unfold W2
  rw [Function.update_of_ne (StableHlo.devRef_ne_of_ne (by decide)), Function.update_of_ne (StableHlo.devRef_ne_of_ne (by decide)), Function.update_self]
theorem W2_out1 (c : Dev nD) : W2 m ρ c (Proc.devRef .tc main_v10_1) = (regionData (V1 m ρ) c).arrAt 9 cfg0.N := by
  unfold W2
  rw [Function.update_of_ne (StableHlo.devRef_ne_of_ne (by decide)), Function.update_self]
theorem W2_out2 (c : Dev nD) : W2 m ρ c (Proc.devRef .tc main_v10_2) = (regionData (V1 m ρ) c).arrAt 10 cfg0.N := by
  unfold W2
  rw [Function.update_self]
theorem W2_of_ne (c : Dev nD) (b : Ref sig .tc) (h0 : b ≠ main_v10_0) (h1 : b ≠ main_v10_1) (h2 : b ≠ main_v10_2) :
    W2 m ρ c (Proc.devRef .tc b) = W1 m ρ c (Proc.devRef .tc b) := by
  unfold W2
  rw [Function.update_of_ne (StableHlo.devRef_ne_of_ne h2), Function.update_of_ne (StableHlo.devRef_ne_of_ne h1), Function.update_of_ne (StableHlo.devRef_ne_of_ne h0)]

/-- At the region's exit each window's array holds what the pipeline leaves: an input's is never written. -/
theorem exit_arrays (c : Dev nD) (w : Fin cfg0.W) : (regionData (V1 m ρ) c).arrAt w cfg0.N = V2 m ρ c (Pipeline.arrRef spec0 w) := by
  match w with
  | ⟨0, _⟩ => exact ((regionData (V1 m ρ) c).arrAt_in 0 rfl _).trans (W2_of_ne m ρ c main_v0 (by decide) (by decide) (by decide)).symm
  | ⟨1, _⟩ => exact ((regionData (V1 m ρ) c).arrAt_in 1 rfl _).trans (W2_of_ne m ρ c main_v0 (by decide) (by decide) (by decide)).symm
  | ⟨2, _⟩ => exact ((regionData (V1 m ρ) c).arrAt_in 2 rfl _).trans (W2_of_ne m ρ c main_v6 (by decide) (by decide) (by decide)).symm
  | ⟨3, _⟩ => exact ((regionData (V1 m ρ) c).arrAt_in 3 rfl _).trans (W2_of_ne m ρ c main_v7 (by decide) (by decide) (by decide)).symm
  | ⟨4, _⟩ => exact ((regionData (V1 m ρ) c).arrAt_in 4 rfl _).trans (W2_of_ne m ρ c main_v1 (by decide) (by decide) (by decide)).symm
  | ⟨5, _⟩ => exact ((regionData (V1 m ρ) c).arrAt_in 5 rfl _).trans (W2_of_ne m ρ c main_v1 (by decide) (by decide) (by decide)).symm
  | ⟨6, _⟩ => exact ((regionData (V1 m ρ) c).arrAt_in 6 rfl _).trans (W2_of_ne m ρ c main_v8 (by decide) (by decide) (by decide)).symm
  | ⟨7, _⟩ => exact ((regionData (V1 m ρ) c).arrAt_in 7 rfl _).trans (W2_of_ne m ρ c main_v9 (by decide) (by decide) (by decide)).symm
  | ⟨8, _⟩ => exact (W2_out0 m ρ c).symm
  | ⟨9, _⟩ => exact (W2_out1 m ρ c).symm
  | ⟨10, _⟩ => exact (W2_out2 m ρ c).symm

/-- and every buffer that is no window's array holds what it held at entry. -/
theorem exit_rest (c : Dev nD) : ∀ b, b ∉ Finset.univ.image (Pipeline.arrRef spec0) → V2 m ρ c b = V1 m ρ c b := fun b hb =>
  W2_of_ne m ρ c b (fun e => hb (Finset.mem_image.mpr ⟨8, Finset.mem_univ _, e.symm⟩))
    (fun e => hb (Finset.mem_image.mpr ⟨9, Finset.mem_univ _, e.symm⟩)) (fun e => hb (Finset.mem_image.mpr ⟨10, Finset.mem_univ _, e.symm⟩))

/-! ### The arguments end as launched: no host operation writes one, and the region only reads them -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide) (by decide) (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide) (by decide) (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide) (by decide) (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-! ## The pipeline's data and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => regionData (V1 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's debts, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents, the generator register
    at some state. -/
abbrev Tₙ (c : Dev nD) : sProp 𝕄 := iprop(StableHlo.held (c : Thread nD τ) (Pipeline.ucRefs τ sig) (W3 m ρ c) ∗ ∃ r, prngReg c r)

/-! ## The region as a segment -/

set_option backward.isDefEq.respectTransparency.types false in
/-- The region over the thread state: entered from every unscoped buffer at the first stretch's results, left at the same
    with the output arrays written. Its arrays are dealt out of the unscoped buffers and gathered back at the exit
    contents; the generator register goes into the invariant and comes out; nothing owed; no semaphore of its own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := entry_split (V1 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit_join (V1 m ρ) c (V2 m ρ c) ((regionData (V1 m ρ) c).arrAt · cfg0.N) (exit_arrays m ρ c) (exit_rest m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing faulting,
    and the final memory holds at every unscoped buffer the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => (show iprop(StableHlo.held (c : Thread nD τ) (Pipeline.ucRefs τ sig) (W3 m ρ c) ∗ R c)
        ⊢ iprop(Tₙ m ρ c ∗ ∃ W, owes (c : Thread nD τ) (0 : CellTallies nD τ sig Unit) W) from by
      iintro ⟨Hh, Hp, HO⟩
      isplitr [HO]
      · isplitl [Hh]; · iexact Hh
        iexact Hp
      iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_main m ρ)

end Cert.KernelIdeal.Region

end
-- ==== Proof.LibRows.lean ====
/-
  Rows and columns of a rank-2 array, read at an index.

  For an `[a, b]` array: a reduction along axis 1 at row `r` ranges over the entries `(r, c)`, a
  reduction along axis 0 at column `c` over the entries `(r, c)`; a vector of `a` entries cast to
  the column shape `[a, 1]` reads entry `r` at `(r, 0)`, and that column broadcast to `[a, b]`
  reads it at every `(r, c)`.  The sums are plain `Finset` sums and the maxima folds of `max` from
  the accumulator's value, for the vector unit's reductions and for the host's `reduce` alike.
-/
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

open scoped BigOperators

namespace Cert.LibRows

open Idealize.ShloMosaic Idealize.ShloMosaic.ValueIdx

variable {a b : ℕ}

/-- Row `r` with lane `k` put back at axis 1 is `(r, k)`. -/
theorem lift_axis1 (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- Column `c` with row `k` put back at axis 0 is `(k, c)`. -/
theorem lift_axis0 (h : (⟨2, ![a, b]⟩ : Shape).Reduces [0] (⟨1, ![b]⟩ : Shape)) (c : Fin b)
    (k : Fin ((⟨2, ![a, b]⟩ : Shape).size 0)) : h.lift (ix1 c) k = ix2 (⟨k.val, k.isLt⟩ : Fin a) c := by
  funext d; apply Fin.ext
  fin_cases d <;> rfl

/-- A lane sum of an `[a, b]` vector, at row `r`: the sum of the row's entries. -/
theorem laneSum_apply {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] ⟨1, ![a]⟩ src acc h hφ hacc (ix1 r) = ∑ c : Fin b, src (ix2 r c) := by
  rw [Ideal.multiReduction_add_single]
  exact Finset.sum_congr rfl fun k _ => congrArg src (lift_axis1 h r k)

/-- A lane maximum of an `[a, b]` vector, at row `r`: the fold of `max` over the row from the accumulator. -/
theorem laneMax_apply {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun c => src (ix2 r c)) := by
  rw [Ideal.multiReduction_maximumf_single]
  have hf : (src ∘ h.lift (ix1 r)) = fun c : Fin b => src (ix2 r c) :=
    funext fun k => congrArg src (lift_axis1 h r k)
  exact congrArg (fun f => Finset.fold max (Ideal.ofBits φ acc) f (Finset.univ : Finset (Fin b))) hf

/-- A sum over the rows of an `[a, b]` vector, at column `c`. -/
theorem rowSum_apply {φ : FTy} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (c : Fin b) :
    multiReduction .add [0] ⟨1, ![b]⟩ src acc h hφ hacc (ix1 c) = ∑ r : Fin a, src (ix2 r c) := by
  rw [Ideal.multiReduction_add_single]
  exact Finset.sum_congr rfl fun k _ => congrArg src (lift_axis0 h c k)

/-- The host's `reduce` with a maximum body along axis 1 of an f32 `[a, b]` array, at row `r`: the same fold,
    from the initial value's one entry. -/
theorem hostLaneMax_apply {u : Shape} (x : (⟨2, ![a, b]⟩ : Shape).Idx → Ideal .f32) (init : u.Idx → Ideal .f32)
    (h' : (⟨2, ![a, b]⟩ : Shape).ReducesTo [1] (⟨1, ![a]⟩ : Shape))
    (h : (⟨2, ![a, b]⟩ : Shape).Reduces [1] (⟨1, ![a]⟩ : Shape)) (hu : 0 < u.numel) (r : Fin a) :
    Host.reduce FloatOps.maximumf x init h' hu (ix1 r)
      = (Finset.univ : Finset (Fin b)).fold max (init (Shape.Idx.first hu)) (fun c => x (ix2 r c)) := by
  rw [Host.reduce_eq_fold_single FloatOps.maximumf x init h' h hu]
  have hf : (x ∘ h.lift (ix1 r)) = fun c : Fin b => x (ix2 r c) :=
    funext fun k => congrArg x (lift_axis1 h r k)
  exact congrArg (fun f => Finset.fold max (init (Shape.Idx.first hu)) f (Finset.univ : Finset (Fin b))) hf

/-- An `[a]` vector cast to the column shape `[a, 1]` reads, at `(r, u)`, entry `r`. -/
theorem shapeCast_a_a1_apply {α : Type} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- An `[a, 1]` column broadcast to `[a, b]` reads, at `(r, c)`, the column's entry of row `r`. -/
theorem broadcastTo_a1_ab_apply {α : Type} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Cert.LibRows

end
-- ==== Proof.LibGram.lean ====
/-
  Products of rows, and the host's sums, read at an index.

  For dimension numbers that contract the second axis of both operands, a matrix product into the zero accumulator, at
  the ideal values, is at (a, b) the inner product of row `a` of the left operand with row `b` of the right one: the
  sum over the contracted coordinate `c` of the entries (a, c) and (b, c). A `[1, b]` row broadcast to `[a, b]` reads,
  at every (r, c), the row's entry (0, c). The host's sum along axis 1 of an `[a, b]` array is, at row `r`, the initial value plus the
  sum of the row's entries; its sum over every axis is the initial value plus the sum of all entries. A finite sum of
  reals, read in the extended reals, is the sum of the entries read there.
-/
import Idealize.ShloMosaic.PureOps.Ideal.Laws
import Idealize.ShloMosaic.Lib.ValueIdx
import Idealize.ShloMosaic.Lib.ValueLayout
import Idealize.ShloMosaic.Lib.Pipeline.Value
import Idealize.ShloMosaic.PureOps.Reduce

noncomputable section

open scoped BigOperators

namespace Cert.LibGram

open Idealize.ShloMosaic Idealize.ShloMosaic.ValueIdx

/-- The dimension numbers that contract axis 1 of both operands, over any witness of their well-formedness. -/
abbrev rowsDims {m k n : ℕ} (w : DotDims.WF ⟨2, ![m, k]⟩ ⟨2, ![n, k]⟩ ⟨2, ![m, n]⟩ [1] [1] [0] [0] [] []) :
    DotDims ⟨2, ![m, k]⟩ ⟨2, ![n, k]⟩ ⟨2, ![m, n]⟩ := ⟨[1], [1], [0], [0], [], [], w⟩

/-- A product of rows into the zero accumulator, at (a, b): the inner product of row `a` and row `b`. -/
theorem matmul_rows_apply {m k n : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    matmul (rowsDims w) prec A B (constant ⟨2, ![m, n]⟩ .f32 0x00000000#32) (ix2 a b) = ∑ c : Fin k, A (ix2 a c) * B (ix2 b c) := by
  show FloatOps.matmul _ prec A B _ (ix2 a b) = _
  rw [Ideal.matmul_constant_zero_apply, ← Equiv.sum_comp (contrEquiv1 (rowsDims w) k rfl rfl).symm]
  refine Finset.sum_congr rfl fun c _ => ?_
  have c2 := contrEquiv1_symm_val (rowsDims w) k rfl rfl c
  have l2 : (rowsDims w).lhsIdx (ix2 a b) ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (rowsDims w).rhsIdx (ix2 a b) ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- A `[1, b]` row broadcast to `[a, b]` reads, at `(r, c)`, the row's entry of column `c`. -/
theorem broadcastTo_1b_ab_apply {a b : ℕ} {α : Type} (v : (⟨2, ![1, b]⟩ : Shape).Idx → α)
    (h : (⟨2, ![1, b]⟩ : Shape).Broadcasts ⟨2, ![a, b]⟩) (r : Fin a) (c : Fin b) :
    broadcastTo ⟨2, ![a, b]⟩ v h (ix2 r c) = v (ix2 (0 : Fin 1) c) := by
  refine broadcastTo_apply v h (ix2 r c) (ix2 (0 : Fin 1) c) fun ax => ?_
  match ax with
  | ⟨0, _⟩ => rfl
  | ⟨1, _⟩ =>
    show c.val = if b = 1 then 0 else c.val
    split
    · have := c.isLt; omega
    · rfl

/-- Row `r` with lane `k` put back at axis 1 is `(r, k)`. -/
theorem lift_lane {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- The host's sum along axis 1 of an f32 `[a, b]` array, at row `r`: the initial value plus the row's entries. -/
theorem hostLaneSum_apply {a b : ℕ} {u : Shape} (x : (⟨2, ![a, b]⟩ : Shape).Idx → Ideal .f32) (init : u.Idx → Ideal .f32)
    (h' : (⟨2, ![a, b]⟩ : Shape).ReducesTo [1] (⟨1, ![a]⟩ : Shape))
    (h : (⟨2, ![a, b]⟩ : Shape).Reduces [1] (⟨1, ![a]⟩ : Shape)) (hu : 0 < u.numel) (r : Fin a) :
    Host.reduceAdd x init h' hu (ix1 r) = init (Shape.Idx.first hu) + ∑ c : Fin b, x (ix2 r c) := by
  simp only [Host.reduceAdd, Ideal.hostReduceAdd_def]
  rw [Ideal.hostReduceAdd_single h' h]
  exact congrArg (_ + ·) (Finset.sum_congr rfl fun k _ => congrArg x (lift_lane h r k))

/-- The host's sum over every axis: the initial value plus all the entries. -/
theorem hostTotalSum_apply {s u : Shape} {axes : List (Fin s.rank)} (x : s.Idx → Ideal .f32) (init : u.Idx → Ideal .f32)
    (h' : s.ReducesTo axes (⟨0, ![]⟩ : Shape)) (hu : 0 < u.numel) (j : (⟨0, ![]⟩ : Shape).Idx) :
    Host.reduceAdd x init h' hu j = init (Shape.Idx.first hu) + ∑ i : s.Idx, x i := by
  simp only [Host.reduceAdd, Ideal.hostReduceAdd_def]
  exact Ideal.hostReduceAdd_total h' (fun b => b.elim0) x _ j

/-- A finite sum of reals read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

end Cert.LibGram

end
-- ==== Proof.IdealPayload.lean ====
/-
  The body's arithmetic at an index. With a 128-row block of z, all 8192 rows of z, the block's squared norms as a
  column and all rows' squared norms as a row, the body forms for block row p and row j the Gaussian weight
  exp(max((‖z_p‖² + ‖z_j‖²) − 2·⟨z_p, z_j⟩, 0) · c), c the negated reciprocal of twice the squared bandwidth. Its
  three stored columns are, at block row p, the sum over j of the x weights, of the y weights, and of their products.
-/
import proofs.«104605_j13073880449542_2_alg».proof.Proof.Gen.KernelIdeal.Skeleton
import proofs.«104605_j13073880449542_2_alg».proof.Proof.LibRows
import proofs.«104605_j13073880449542_2_alg».proof.Proof.LibGram

noncomputable section

open scoped BigOperators

namespace Cert.KernelIdeal.Payload

open Cert.KernelIdeal Cert.KernelIdeal.Gen Idealize.ShloMosaic Idealize.ShloMosaic.ValueIdx

/-- The Gaussian weight between row `p` of a 128-row block `Z0` and row `j` of the whole `Z1`, their squared norms
    given as the column `q0` and the row `q1`. -/
def weight {d : ℕ} (c : EReal) (Z0 : (⟨2, ![128, d]⟩ : Shape).Idx → EReal) (Z1 : (⟨2, ![8192, d]⟩ : Shape).Idx → EReal)
    (q0 : (⟨2, ![128, 1]⟩ : Shape).Idx → EReal) (q1 : (⟨2, ![1, 8192]⟩ : Shape).Idx → EReal) (p : Fin 128) (j : Fin 8192) : EReal :=
  Ideal.exp (max ((q0 (ix2 p (0 : Fin 1)) + q1 (ix2 (0 : Fin 1) j))
      - Ideal.ofBits .f32 0x40000000#32 * ∑ k : Fin d, Z0 (ix2 p k) * Z1 (ix2 j k)) (Ideal.ofBits .f32 0x00000000#32) * c)

/-- The x weights. -/
theorem weightX_apply (x0 : Vec Ideal S128x128 .bf16) (x1 : Vec Ideal S8192x128 .bf16) (x2 : Vec Ideal S128x1 .f32) (x3 : Vec Ideal S1x8192 .f32)
    (p : Fin 128) (j : Fin 8192) :
    k0_pay4 (F := Ideal) x0 x1 x2 x3 (ix2 p j) = weight (Ideal.ofBits .f32 0xBC000000#32) x0 x1 x2 x3 p j := by
  have hm : matmul (F := Ideal) (φ₁ := .bf16) (φ₂ := .bf16) dot_S128x128_S8192x128_S128x8192_1_1_0_0_n_n none (shapeCast S128x128 x0 shapeCasts_S128x128_S128x128)
      (shapeCast S8192x128 x1 shapeCasts_S8192x128_S8192x128) (constant S128x8192 .f32 0x00000000#32) (ix2 p j)
      = ∑ k : Fin 128, x0 (ix2 p k) * x1 (ix2 j k) := by
    rw [shapeCast_self, shapeCast_self]
    exact Cert.LibGram.matmul_rows_apply Facts₀.dot_S128x128_S8192x128_S128x8192_1_1_0_0_n_n_wf none x0 x1 p j
  have h1 : broadcastTo S128x8192 (shapeCast S128x1 x2 shapeCasts_S128x1_S128x1) broadcasts_S128x1_S128x8192 (ix2 p j) = x2 (ix2 p (0 : Fin 1)) := by
    rw [shapeCast_self]; exact Cert.LibRows.broadcastTo_a1_ab_apply x2 _ p j
  have h2 : broadcastTo S128x8192 (shapeCast S1x8192 x3 shapeCasts_S1x8192_S1x8192) broadcasts_S1x8192_S128x8192 (ix2 p j) = x3 (ix2 (0 : Fin 1) j) := by
    rw [shapeCast_self]; exact broadcastTo_1b_ab_apply x3 _ p j
  unfold k0_pay4 weight
  show Ideal.exp (max ((broadcastTo S128x8192 (shapeCast S128x1 x2 shapeCasts_S128x1_S128x1) broadcasts_S128x1_S128x8192 (ix2 p j)
        + broadcastTo S128x8192 (shapeCast S1x8192 x3 shapeCasts_S1x8192_S1x8192) broadcasts_S1x8192_S128x8192 (ix2 p j))
      - Ideal.ofBits .f32 0x40000000#32 * matmul (F := Ideal) (φ₁ := .bf16) (φ₂ := .bf16) dot_S128x128_S8192x128_S128x8192_1_1_0_0_n_n none (shapeCast S128x128 x0 shapeCasts_S128x128_S128x128)
          (shapeCast S8192x128 x1 shapeCasts_S8192x128_S8192x128) (constant S128x8192 .f32 0x00000000#32) (ix2 p j))
      (Ideal.ofBits .f32 0x00000000#32) * Ideal.ofBits .f32 0xBC000000#32) = _
  rw [hm, h1, h2]

/-- The y weights. -/
theorem weightY_apply (x4 : Vec Ideal S128x16 .bf16) (x5 : Vec Ideal S8192x16 .bf16) (x6 : Vec Ideal S128x1 .f32) (x7 : Vec Ideal S1x8192 .f32)
    (p : Fin 128) (j : Fin 8192) :
    k0_pay1 (F := Ideal) (k0_pay6 x4 x5) (k0_pay7 x6) (k0_pay8 x7) (ix2 p j) = weight (Ideal.ofBits .f32 0xBD000000#32) x4 x5 x6 x7 p j := by
  have hm : k0_pay6 (F := Ideal) x4 x5 (ix2 p j) = ∑ k : Fin 16, x4 (ix2 p k) * x5 (ix2 j k) := by
    unfold k0_pay6
    rw [shapeCast_self, shapeCast_self]
    exact Cert.LibGram.matmul_rows_apply Facts₀.dot_S128x16_S8192x16_S128x8192_1_1_0_0_n_n_wf none x4 x5 p j
  have h1 : k0_pay7 (F := Ideal) x6 (ix2 p j) = x6 (ix2 p (0 : Fin 1)) := by
    unfold k0_pay7
    rw [shapeCast_self]; exact Cert.LibRows.broadcastTo_a1_ab_apply x6 _ p j
  have h2 : k0_pay8 (F := Ideal) x7 (ix2 p j) = x7 (ix2 (0 : Fin 1) j) := by
    unfold k0_pay8
    rw [shapeCast_self]; exact broadcastTo_1b_ab_apply x7 _ p j
  unfold k0_pay1 weight
  show Ideal.exp (max ((k0_pay7 (F := Ideal) x6 (ix2 p j) + k0_pay8 (F := Ideal) x7 (ix2 p j))
      - Ideal.ofBits .f32 0x40000000#32 * k0_pay6 (F := Ideal) x4 x5 (ix2 p j))
      (Ideal.ofBits .f32 0x00000000#32) * Ideal.ofBits .f32 0xBD000000#32) = _
  rw [hm, h1, h2]

/-- The first stored column: the row sums of the x weights. -/
theorem rowSumX_apply (x0 : Vec Ideal S128x128 .bf16) (x1 : Vec Ideal S8192x128 .bf16) (x2 : Vec Ideal S128x1 .f32) (x3 : Vec Ideal S1x8192 .f32)
    (p : Fin 128) (u : Fin 1) :
    k0_pay5 (F := Ideal) x0 x1 x2 x3 (ix2 p u) = ∑ j : Fin 8192, weight (Ideal.ofBits .f32 0xBC000000#32) x0 x1 x2 x3 p j := by
  unfold k0_pay5
  rw [Cert.LibRows.shapeCast_a_a1_apply]
  refine (Cert.LibRows.laneSum_apply (a := 128) (b := 8192) _ _ _ _ _ p).trans ?_
  exact Finset.sum_congr rfl fun j _ => weightX_apply x0 x1 x2 x3 p j

/-- The second: the row sums of the y weights. -/
theorem rowSumY_apply (x4 : Vec Ideal S128x16 .bf16) (x5 : Vec Ideal S8192x16 .bf16) (x6 : Vec Ideal S128x1 .f32) (x7 : Vec Ideal S1x8192 .f32)
    (p : Fin 128) (u : Fin 1) :
    k0_pay2 (F := Ideal) (k0_pay6 x4 x5) (k0_pay7 x6) (k0_pay8 x7) (ix2 p u) = ∑ j : Fin 8192, weight (Ideal.ofBits .f32 0xBD000000#32) x4 x5 x6 x7 p j := by
  unfold k0_pay2
  rw [Cert.LibRows.shapeCast_a_a1_apply]
  refine (Cert.LibRows.laneSum_apply (a := 128) (b := 8192) _ _ _ _ _ p).trans ?_
  exact Finset.sum_congr rfl fun j _ => weightY_apply x4 x5 x6 x7 p j

/-- The third: the row sums of the products of the two weights. -/
theorem rowSumXY_apply (x0 : Vec Ideal S128x128 .bf16) (x1 : Vec Ideal S8192x128 .bf16) (x2 : Vec Ideal S128x1 .f32) (x3 : Vec Ideal S1x8192 .f32)
    (x4 : Vec Ideal S128x16 .bf16) (x5 : Vec Ideal S8192x16 .bf16) (x6 : Vec Ideal S128x1 .f32) (x7 : Vec Ideal S1x8192 .f32)
    (p : Fin 128) (u : Fin 1) :
    k0_pay3 (F := Ideal) (k0_pay4 x0 x1 x2 x3) (k0_pay6 x4 x5) (k0_pay7 x6) (k0_pay8 x7) (ix2 p u)
      = ∑ j : Fin 8192, weight (Ideal.ofBits .f32 0xBC000000#32) x0 x1 x2 x3 p j * weight (Ideal.ofBits .f32 0xBD000000#32) x4 x5 x6 x7 p j := by
  unfold k0_pay3
  rw [Cert.LibRows.shapeCast_a_a1_apply]
  refine (Cert.LibRows.laneSum_apply (a := 128) (b := 8192) _ _ _ _ _ p).trans ?_
  refine Finset.sum_congr rfl fun j _ => ?_
  show k0_pay4 (F := Ideal) x0 x1 x2 x3 (ix2 p j) * k0_pay1 (F := Ideal) (k0_pay6 x4 x5) (k0_pay7 x6) (k0_pay8 x7) (ix2 p j) = _
  rw [weightX_apply, weightY_apply]

end Cert.KernelIdeal.Payload

end
-- ==== Proof.IdealBlocks.lean ====
/-
  From blocks to arrays. A row-blocked window's block at point t is rows 128t … 128t + 127 of its array; the windows
  that take a whole array read it unchanged at every point. So the column a point writes back is, at block row p,
  the row sum of the Gaussian weights of row 128t + p against every row, read off the arrays as the region finds
  them; the 64 blocks tile the 8192 rows, and the three output arrays end holding those row sums.
-/
import proofs.«104605_j13073880449542_2_alg».proof.Proof.IdealLaunch
import proofs.«104605_j13073880449542_2_alg».proof.Proof.IdealPayload
import Idealize.ShloMosaic.Lib.Pipeline.Value

set_option maxRecDepth 16384

noncomputable section

open scoped BigOperators

namespace Cert.KernelIdeal.Region

open Cert.KernelIdeal Cert.KernelIdeal.Gen Cert.KernelIdeal.Payload
open Idealize.ShloMosaic Idealize.ShloMosaic.TcCoe Idealize.SL.Sem Idealize.ShloMosaic.ValueIdx
open Idealize.ShloMosaic.Pipeline (Dat)

/-- The Gaussian weight between rows `i` and `j` of `Z`, the rows' squared norms given as a column and as a row. -/
def pairWeight {d : ℕ} (c : EReal) (Z : (⟨2, ![8192, d]⟩ : Shape).Idx → EReal)
    (qc : (⟨2, ![8192, 1]⟩ : Shape).Idx → EReal) (qr : (⟨2, ![1, 8192]⟩ : Shape).Idx → EReal) (i j : Fin 8192) : EReal :=
  Ideal.exp (max ((qc (ix2 i (0 : Fin 1)) + qr (ix2 (0 : Fin 1) j))
      - Ideal.ofBits .f32 0x40000000#32 * ∑ k : Fin d, Z (ix2 i k) * Z (ix2 j k)) (Ideal.ofBits .f32 0x00000000#32) * c)

/-- A block's weights are the arrays' when the block's rows are the arrays' rows. -/
theorem weight_of_rows {d : ℕ} (c : EReal) (Z0 : (⟨2, ![128, d]⟩ : Shape).Idx → EReal) (Z1 : (⟨2, ![8192, d]⟩ : Shape).Idx → EReal)
    (q0 : (⟨2, ![128, 1]⟩ : Shape).Idx → EReal) (q1 : (⟨2, ![1, 8192]⟩ : Shape).Idx → EReal)
    (Z : (⟨2, ![8192, d]⟩ : Shape).Idx → EReal) (qc : (⟨2, ![8192, 1]⟩ : Shape).Idx → EReal) (qr : (⟨2, ![1, 8192]⟩ : Shape).Idx → EReal)
    (p : Fin 128) (i : Fin 8192)
    (h0 : ∀ k, Z0 (ix2 p k) = Z (ix2 i k)) (h1 : ∀ j k, Z1 (ix2 j k) = Z (ix2 j k))
    (h2 : q0 (ix2 p (0 : Fin 1)) = qc (ix2 i (0 : Fin 1))) (h3 : ∀ j, q1 (ix2 (0 : Fin 1) j) = qr (ix2 (0 : Fin 1) j)) (j : Fin 8192) :
    weight c Z0 Z1 q0 q1 p j = pairWeight c Z qc qr i j := by
  unfold weight pairWeight
  rw [h2, h3 j]
  simp only [h0, h1]

variable {F : FTy → Type} [FloatOps F]
variable (V : (c : Dev nD) → (b : Ref sig .tc) → Buf (Elt F) ((c : Thread nD τ).loc b))

/-- The printed index maps, decided over the grid: a row-blocked window's block index is the point, every other
    coordinate of every window's block index is zero. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0
    ∧ win0_10.index t (0 : Fin 2) = t.val ∧ win0_10.index t (1 : Fin 2) = 0 :=
  (by decide +kernel : ∀ t : Fin grid0.N, _)

/-- Window 0's block at point `t`, read at an index: rows 128t … 128t + 127 of its array. -/
theorem blockAt_0_apply (c : Dev nD) (t : Fin cfg0.N) (x : S128x128.Idx) (k : S8192x128.Idx)
    (hk0 : (k 0).val = 128 * t.val + (x 0).val) (hk1 : (k 1).val = (x 1).val) :
    (blockAt V c 0 t : Vec F S128x128 .bf16) x = (V c main_v0 : S8192x128.Idx → Elt F .bf16) k := by
  have hi0 : win0_0.index t (0 : Fin 2) = t.val := (index_facts t).1
  have hi1 : win0_0.index t (1 : Fin 2) = 0 := (index_facts t).2.1
  unfold blockAt
  rw [View.read_apply]
  show V c main_v0 _ = V c main_v0 _
  congr 1
  funext a
  apply Fin.ext
  match a with
  | ⟨0, _⟩ => show win0_0.index t (0 : Fin 2) * 128 + 1 * (x 0).val = (k 0).val; rw [hi0, hk0]; omega
  | ⟨1, _⟩ => show win0_0.index t (1 : Fin 2) * 128 + 1 * (x 1).val = (k 1).val; rw [hi1, hk1]; omega

/-- Window 1's block at point `t`, read at an index: its whole array. -/
theorem blockAt_1_apply (c : Dev nD) (t : Fin cfg0.N) (x : S8192x128.Idx) (k : S8192x128.Idx)
    (hk0 : (k 0).val = (x 0).val) (hk1 : (k 1).val = (x 1).val) :
    (blockAt V c 1 t : Vec F S8192x128 .bf16) x = (V c main_v0 : S8192x128.Idx → Elt F .bf16) k := by
  have hi0 : win0_1.index t (0 : Fin 2) = 0 := (index_facts t).2.2.1
  have hi1 : win0_1.index t (1 : Fin 2) = 0 := (index_facts t).2.2.2.1
  unfold blockAt
  rw [View.read_apply]
  show V c main_v0 _ = V c main_v0 _
  congr 1
  funext a
  apply Fin.ext
  match a with
  | ⟨0, _⟩ => show win0_1.index t (0 : Fin 2) * 8192 + 1 * (x 0).val = (k 0).val; rw [hi0, hk0]; omega
  | ⟨1, _⟩ => show win0_1.index t (1 : Fin 2) * 128 + 1 * (x 1).val = (k 1).val; rw [hi1, hk1]; omega

/-- Window 2's block at point `t`, read at an index: rows 128t … 128t + 127 of its array. -/
theorem blockAt_2_apply (c : Dev nD) (t : Fin cfg0.N) (x : S128x1.Idx) (k : S8192x1.Idx)
    (hk0 : (k 0).val = 128 * t.val + (x 0).val) (hk1 : (k 1).val = (x 1).val) :
    (blockAt V c 2 t : Vec F S128x1 .f32) x = (V c main_v6 : S8192x1.Idx → Elt F .f32) k := by
  have hi0 : win0_2.index t (0 : Fin 2) = t.val := (index_facts t).2.2.2.2.1
  have hi1 : win0_2.index t (1 : Fin 2) = 0 := (index_facts t).2.2.2.2.2.1
  unfold blockAt
  rw [View.read_apply]
  show V c main_v6 _ = V c main_v6 _
  congr 1
  funext a
  apply Fin.ext
  match a with
  | ⟨0, _⟩ => show win0_2.index t (0 : Fin 2) * 128 + 1 * (x 0).val = (k 0).val; rw [hi0, hk0]; omega
  | ⟨1, _⟩ => show win0_2.index t (1 : Fin 2) * 1 + 1 * (x 1).val = (k 1).val; rw [hi1, hk1]; omega

/-- Window 3's block at point `t`, read at an index: its whole array. -/
theorem blockAt_3_apply (c : Dev nD) (t : Fin cfg0.N) (x : S1x8192.Idx) (k : S1x8192.Idx)
    (hk0 : (k 0).val = (x 0).val) (hk1 : (k 1).val = (x 1).val) :
    (blockAt V c 3 t : Vec F S1x8192 .f32) x = (V c main_v7 : S1x8192.Idx → Elt F .f32) k := by
  have hi0 : win0_3.index t (0 : Fin 2) = 0 := (index_facts t).2.2.2.2.2.2.1
  have hi1 : win0_3.index t (1 : Fin 2) = 0 := (index_facts t).2.2.2.2.2.2.2.1
  unfold blockAt
  rw [View.read_apply]
  show V c main_v7 _ = V c main_v7 _
  congr 1
  funext a
  apply Fin.ext
  match a with
  | ⟨0, _⟩ => show win0_3.index t (0 : Fin 2) * 1 + 1 * (x 0).val = (k 0).val; rw [hi0, hk0]; omega
  | ⟨1, _⟩ => show win0_3.index t (1 : Fin 2) * 8192 + 1 * (x 1).val = (k 1).val; rw [hi1, hk1]; omega

/-- Window 4's block at point `t`, read at an index: rows 128t … 128t + 127 of its array. -/
theorem blockAt_4_apply (c : Dev nD) (t : Fin cfg0.N) (x : S128x16.Idx) (k : S8192x16.Idx)
    (hk0 : (k 0).val = 128 * t.val + (x 0).val) (hk1 : (k 1).val = (x 1).val) :
    (blockAt V c 4 t : Vec F S128x16 .bf16) x = (V c main_v1 : S8192x16.Idx → Elt F .bf16) k := by
  have hi0 : win0_4.index t (0 : Fin 2) = t.val := (index_facts t).2.2.2.2.2.2.2.2.1
  have hi1 : win0_4.index t (1 : Fin 2) = 0 := (index_facts t).2.2.2.2.2.2.2.2.2.1
  unfold blockAt
  rw [View.read_apply]
  show V c main_v1 _ = V c main_v1 _
  congr 1
  funext a
  apply Fin.ext
  match a with
  | ⟨0, _⟩ => show win0_4.index t (0 : Fin 2) * 128 + 1 * (x 0).val = (k 0).val; rw [hi0, hk0]; omega
  | ⟨1, _⟩ => show win0_4.index t (1 : Fin 2) * 16 + 1 * (x 1).val = (k 1).val; rw [hi1, hk1]; omega

/-- Window 5's block at point `t`, read at an index: its whole array. -/
theorem blockAt_5_apply (c : Dev nD) (t : Fin cfg0.N) (x : S8192x16.Idx) (k : S8192x16.Idx)
    (hk0 : (k 0).val = (x 0).val) (hk1 : (k 1).val = (x 1).val) :
    (blockAt V c 5 t : Vec F S8192x16 .bf16) x = (V c main_v1 : S8192x16.Idx → Elt F .bf16) k := by
  have hi0 : win0_5.index t (0 : Fin 2) = 0 := (index_facts t).2.2.2.2.2.2.2.2.2.2.1
  have hi1 : win0_5.index t (1 : Fin 2) = 0 := (index_facts t).2.2.2.2.2.2.2.2.2.2.2.1
  unfold blockAt
  rw [View.read_apply]
  show V c main_v1 _ = V c main_v1 _
  congr 1
  funext a
  apply Fin.ext
  match a with
  | ⟨0, _⟩ => show win0_5.index t (0 : Fin 2) * 8192 + 1 * (x 0).val = (k 0).val; rw [hi0, hk0]; omega
  | ⟨1, _⟩ => show win0_5.index t (1 : Fin 2) * 16 + 1 * (x 1).val = (k 1).val; rw [hi1, hk1]; omega

/-- Window 6's block at point `t`, read at an index: rows 128t … 128t + 127 of its array. -/
theorem blockAt_6_apply (c : Dev nD) (t : Fin cfg0.N) (x : S128x1.Idx) (k : S8192x1.Idx)
    (hk0 : (k 0).val = 128 * t.val + (x 0).val) (hk1 : (k 1).val = (x 1).val) :
    (blockAt V c 6 t : Vec F S128x1 .f32) x = (V c main_v8 : S8192x1.Idx → Elt F .f32) k := by
  have hi0 : win0_6.index t (0 : Fin 2) = t.val := (index_facts t).2.2.2.2.2.2.2.2.2.2.2.2.1
  have hi1 : win0_6.index t (1 : Fin 2) = 0 := (index_facts t).2.2.2.2.2.2.2.2.2.2.2.2.2.1
  unfold blockAt
  rw [View.read_apply]
  show V c main_v8 _ = V c main_v8 _
  congr 1
  funext a
  apply Fin.ext
  match a with
  | ⟨0, _⟩ => show win0_6.index t (0 : Fin 2) * 128 + 1 * (x 0).val = (k 0).val; rw [hi0, hk0]; omega
  | ⟨1, _⟩ => show win0_6.index t (1 : Fin 2) * 1 + 1 * (x 1).val = (k 1).val; rw [hi1, hk1]; omega

/-- Window 7's block at point `t`, read at an index: its whole array. -/
theorem blockAt_7_apply (c : Dev nD) (t : Fin cfg0.N) (x : S1x8192.Idx) (k : S1x8192.Idx)
    (hk0 : (k 0).val = (x 0).val) (hk1 : (k 1).val = (x 1).val) :
    (blockAt V c 7 t : Vec F S1x8192 .f32) x = (V c main_v9 : S1x8192.Idx → Elt F .f32) k := by
  have hi0 : win0_7.index t (0 : Fin 2) = 0 := (index_facts t).2.2.2.2.2.2.2.2.2.2.2.2.2.2.1
  have hi1 : win0_7.index t (1 : Fin 2) = 0 := (index_facts t).2.2.2.2.2.2.2.2.2.2.2.2.2.2.2.1
  unfold blockAt
  rw [View.read_apply]
  show V c main_v9 _ = V c main_v9 _
  congr 1
  funext a
  apply Fin.ext
  match a with
  | ⟨0, _⟩ => show win0_7.index t (0 : Fin 2) * 1 + 1 * (x 0).val = (k 0).val; rw [hi0, hk0]; omega
  | ⟨1, _⟩ => show win0_7.index t (1 : Fin 2) * 8192 + 1 * (x 1).val = (k 1).val; rw [hi1, hk1]; omega

section Arrays

variable (m : (ℓ : Loc nD τ sig) → Buf (Elt Ideal) ℓ) (ρ : Dev nD → PrngReg)

theorem hz : (![0, 0] : Fin 2 → Nat) = fun _ => 0 := funext fun a => by fin_cases a <;> rfl

/-- The arrays as the region finds them: x and y as cast, their rows' squared norms as columns and as rows. -/
abbrev entX (c : Dev nD) : (⟨2, ![8192, 128]⟩ : Shape).Idx → EReal := V1 m ρ c main_v0
abbrev entQxc (c : Dev nD) : (⟨2, ![8192, 1]⟩ : Shape).Idx → EReal := V1 m ρ c main_v6
abbrev entQxr (c : Dev nD) : (⟨2, ![1, 8192]⟩ : Shape).Idx → EReal := V1 m ρ c main_v7
abbrev entY (c : Dev nD) : (⟨2, ![8192, 16]⟩ : Shape).Idx → EReal := V1 m ρ c main_v1
abbrev entQyc (c : Dev nD) : (⟨2, ![8192, 1]⟩ : Shape).Idx → EReal := V1 m ρ c main_v8
abbrev entQyr (c : Dev nD) : (⟨2, ![1, 8192]⟩ : Shape).Idx → EReal := V1 m ρ c main_v9

/-- The column of row sums of the x weights, -/
def colX (c : Dev nD) : (⟨2, ![8192, 1]⟩ : Shape).Idx → EReal :=
  fun i => ∑ j : Fin 8192, pairWeight (Ideal.ofBits .f32 0xBC000000#32) (entX m ρ c) (entQxc m ρ c) (entQxr m ρ c) (⟨(i 0).val, (i 0).isLt⟩ : Fin 8192) j
/-- of the y weights, -/
def colY (c : Dev nD) : (⟨2, ![8192, 1]⟩ : Shape).Idx → EReal :=
  fun i => ∑ j : Fin 8192, pairWeight (Ideal.ofBits .f32 0xBD000000#32) (entY m ρ c) (entQyc m ρ c) (entQyr m ρ c) (⟨(i 0).val, (i 0).isLt⟩ : Fin 8192) j
/-- and of their products. -/
def colXY (c : Dev nD) : (⟨2, ![8192, 1]⟩ : Shape).Idx → EReal :=
  fun i => ∑ j : Fin 8192, pairWeight (Ideal.ofBits .f32 0xBC000000#32) (entX m ρ c) (entQxc m ρ c) (entQxr m ρ c) (⟨(i 0).val, (i 0).isLt⟩ : Fin 8192) j * pairWeight (Ideal.ofBits .f32 0xBD000000#32) (entY m ρ c) (entQyc m ρ c) (entQyr m ρ c) (⟨(i 0).val, (i 0).isLt⟩ : Fin 8192) j

/-- What point `t` writes back through window 8 is block `t` of the column. -/
theorem flushed8_eq (c : Dev nD) (t : Fin cfg0.N) :
    (regionData (V1 m ρ) c).flushed 8 t = ((cfg0.win 8).blk t).view.read (Elt Ideal) (colX m ρ c) := by
  have hi0 : win0_8.index t (0 : Fin 2) = t.val := (index_facts t).2.2.2.2.2.2.2.2.2.2.2.2.2.2.2.2.1
  show (cfg0.win 8).cut (grid0.coords t) ((regionData (V1 m ρ) c).after 8 t) = _
  rw [after_8]
  unfold rowSumsX
  rw [View.canon_unit_zero hz]
  simp only [View.ld_unit_zero (S := S128x128) hz, View.ld_unit_zero (S := S8192x128) hz, View.ld_unit_zero (S := S128x1) hz, View.ld_unit_zero (S := S1x8192) hz, View.ld_unit_zero (S := S128x16) hz, View.ld_unit_zero (S := S8192x16) hz]
  funext y
  obtain ⟨p, u, rfl⟩ : ∃ (p : Fin 128) (u : Fin 1), y = ix2 p u := ⟨y 0, y 1, eq_ix2 y⟩
  show k0_pay5 (F := Ideal) (blockAt (V1 m ρ) c 0 t) (blockAt (V1 m ρ) c 1 t) (blockAt (V1 m ρ) c 2 t) (blockAt (V1 m ρ) c 3 t) (ix2 p u) = colX m ρ c (((cfg0.win 8).blk t).view.emb (ix2 p u))
  rw [rowSumX_apply]
  unfold colX
  refine Finset.sum_congr rfl fun j _ => ?_
  have hrow : ((((cfg0.win 8).blk t).view.emb (ix2 p u)) 0).val = 128 * t.val + p.val := by
    show win0_8.index t (0 : Fin 2) * 128 + 1 * p.val = _; rw [hi0]; omega
  exact weight_of_rows _ _ _ _ _ _ _ _ p _ (fun k => blockAt_0_apply (V1 m ρ) c t (ix2 p k) (ix2 _ k) hrow rfl)
    (fun j k => blockAt_1_apply (V1 m ρ) c t (ix2 j k) (ix2 j k) rfl rfl)
    (blockAt_2_apply (V1 m ρ) c t (ix2 p (0 : Fin 1)) (ix2 _ (0 : Fin 1)) hrow rfl)
    (fun j => blockAt_3_apply (V1 m ρ) c t (ix2 (0 : Fin 1) j) (ix2 (0 : Fin 1) j) rfl rfl) j
/-- What point `t` writes back through window 9 is block `t` of the column. -/
theorem flushed9_eq (c : Dev nD) (t : Fin cfg0.N) :
    (regionData (V1 m ρ) c).flushed 9 t = ((cfg0.win 9).blk t).view.read (Elt Ideal) (colY m ρ c) := by
  have hi0 : win0_9.index t (0 : Fin 2) = t.val := (index_facts t).2.2.2.2.2.2.2.2.2.2.2.2.2.2.2.2.2.2.1
  show (cfg0.win 9).cut (grid0.coords t) ((regionData (V1 m ρ) c).after 9 t) = _
  rw [after_9]
  unfold rowSumsY
  rw [View.canon_unit_zero hz]
  simp only [View.ld_unit_zero (S := S128x128) hz, View.ld_unit_zero (S := S8192x128) hz, View.ld_unit_zero (S := S128x1) hz, View.ld_unit_zero (S := S1x8192) hz, View.ld_unit_zero (S := S128x16) hz, View.ld_unit_zero (S := S8192x16) hz]
  funext y
  obtain ⟨p, u, rfl⟩ : ∃ (p : Fin 128) (u : Fin 1), y = ix2 p u := ⟨y 0, y 1, eq_ix2 y⟩
  show k0_pay2 (F := Ideal) (k0_pay6 (blockAt (V1 m ρ) c 4 t) (blockAt (V1 m ρ) c 5 t)) (k0_pay7 (blockAt (V1 m ρ) c 6 t)) (k0_pay8 (blockAt (V1 m ρ) c 7 t)) (ix2 p u) = colY m ρ c (((cfg0.win 9).blk t).view.emb (ix2 p u))
  rw [rowSumY_apply]
  unfold colY
  refine Finset.sum_congr rfl fun j _ => ?_
  have hrow : ((((cfg0.win 9).blk t).view.emb (ix2 p u)) 0).val = 128 * t.val + p.val := by
    show win0_9.index t (0 : Fin 2) * 128 + 1 * p.val = _; rw [hi0]; omega
  exact weight_of_rows _ _ _ _ _ _ _ _ p _ (fun k => blockAt_4_apply (V1 m ρ) c t (ix2 p k) (ix2 _ k) hrow rfl)
    (fun j k => blockAt_5_apply (V1 m ρ) c t (ix2 j k) (ix2 j k) rfl rfl)
    (blockAt_6_apply (V1 m ρ) c t (ix2 p (0 : Fin 1)) (ix2 _ (0 : Fin 1)) hrow rfl)
    (fun j => blockAt_7_apply (V1 m ρ) c t (ix2 (0 : Fin 1) j) (ix2 (0 : Fin 1) j) rfl rfl) j
/-- What point `t` writes back through window 10 is block `t` of the column. -/
theorem flushed10_eq (c : Dev nD) (t : Fin cfg0.N) :
    (regionData (V1 m ρ) c).flushed 10 t = ((cfg0.win 10).blk t).view.read (Elt Ideal) (colXY m ρ c) := by
  have hi0 : win0_10.index t (0 : Fin 2) = t.val := (index_facts t).2.2.2.2.2.2.2.2.2.2.2.2.2.2.2.2.2.2.2.2.1
  show (cfg0.win 10).cut (grid0.coords t) ((regionData (V1 m ρ) c).after 10 t) = _
  rw [after_10]
  unfold rowSumsXY
  rw [View.canon_unit_zero hz]
  simp only [View.ld_unit_zero (S := S128x128) hz, View.ld_unit_zero (S := S8192x128) hz, View.ld_unit_zero (S := S128x1) hz, View.ld_unit_zero (S := S1x8192) hz, View.ld_unit_zero (S := S128x16) hz, View.ld_unit_zero (S := S8192x16) hz]
  funext y
  obtain ⟨p, u, rfl⟩ : ∃ (p : Fin 128) (u : Fin 1), y = ix2 p u := ⟨y 0, y 1, eq_ix2 y⟩
  show k0_pay3 (F := Ideal) (k0_pay4 (blockAt (V1 m ρ) c 0 t) (blockAt (V1 m ρ) c 1 t) (blockAt (V1 m ρ) c 2 t) (blockAt (V1 m ρ) c 3 t)) (k0_pay6 (blockAt (V1 m ρ) c 4 t) (blockAt (V1 m ρ) c 5 t)) (k0_pay7 (blockAt (V1 m ρ) c 6 t)) (k0_pay8 (blockAt (V1 m ρ) c 7 t)) (ix2 p u) = colXY m ρ c (((cfg0.win 10).blk t).view.emb (ix2 p u))
  rw [rowSumXY_apply]
  unfold colXY
  refine Finset.sum_congr rfl fun j _ => ?_
  have hrow : ((((cfg0.win 10).blk t).view.emb (ix2 p u)) 0).val = 128 * t.val + p.val := by
    show win0_10.index t (0 : Fin 2) * 128 + 1 * p.val = _; rw [hi0]; omega
  rw [weight_of_rows _ _ _ _ _ _ _ _ p _ (fun k => blockAt_0_apply (V1 m ρ) c t (ix2 p k) (ix2 _ k) hrow rfl)
    (fun j k => blockAt_1_apply (V1 m ρ) c t (ix2 j k) (ix2 j k) rfl rfl)
    (blockAt_2_apply (V1 m ρ) c t (ix2 p (0 : Fin 1)) (ix2 _ (0 : Fin 1)) hrow rfl)
    (fun j => blockAt_3_apply (V1 m ρ) c t (ix2 (0 : Fin 1) j) (ix2 (0 : Fin 1) j) rfl rfl) j,
    weight_of_rows _ _ _ _ _ _ _ _ p _ (fun k => blockAt_4_apply (V1 m ρ) c t (ix2 p k) (ix2 _ k) hrow rfl)
    (fun j k => blockAt_5_apply (V1 m ρ) c t (ix2 j k) (ix2 j k) rfl rfl)
    (blockAt_6_apply (V1 m ρ) c t (ix2 p (0 : Fin 1)) (ix2 _ (0 : Fin 1)) hrow rfl)
    (fun j => blockAt_7_apply (V1 m ρ) c t (ix2 (0 : Fin 1) j) (ix2 (0 : Fin 1) j) rfl rfl) j]
  rfl
/-- The 64 blocks tile the 8192 rows, so the array ends holding the column. -/
theorem final8 (c : Dev nD) : (regionData (V1 m ρ) c).arrAt 8 cfg0.N = colX m ρ c :=
  (regionData (V1 m ρ) c).arrAt_eq_of_cover 8 (colX m ρ c) (fun t _ => flushed8_eq m ρ c t) fun i => by
    have h0 : (i 0).val < 8192 := (i 0).isLt
    have h1 : (i 1).val < 1 := (i 1).isLt
    have hN : cfg0.N = 64 := N_0
    have ht : (i 0).val / 128 < cfg0.N := by rw [hN]; omega
    have hi0 : win0_8.index ⟨(i 0).val / 128, ht⟩ (0 : Fin 2) = (i 0).val / 128 := (index_facts ⟨(i 0).val / 128, ht⟩).2.2.2.2.2.2.2.2.2.2.2.2.2.2.2.2.1
    have hi1 : win0_8.index ⟨(i 0).val / 128, ht⟩ (1 : Fin 2) = 0 := (index_facts ⟨(i 0).val / 128, ht⟩).2.2.2.2.2.2.2.2.2.2.2.2.2.2.2.2.2.1
    refine ⟨⟨(i 0).val / 128, ht⟩, flush0_8 _, ?_⟩
    show i ∈ ((View.whole main_v10_0).slice (win0_8.rect ⟨(i 0).val / 128, ht⟩)).set
    rw [View.set_slice_whole, Rect.mem_set_unit]
    intro a
    match a with
    | ⟨0, _⟩ =>
      show win0_8.index ⟨(i 0).val / 128, ht⟩ (0 : Fin 2) * 128 ≤ (i 0).val ∧ (i 0).val < win0_8.index ⟨(i 0).val / 128, ht⟩ (0 : Fin 2) * 128 + 128
      rw [hi0]; omega
    | ⟨1, _⟩ =>
      show win0_8.index ⟨(i 0).val / 128, ht⟩ (1 : Fin 2) * 1 ≤ (i 1).val ∧ (i 1).val < win0_8.index ⟨(i 0).val / 128, ht⟩ (1 : Fin 2) * 1 + 1
      rw [hi1]; omega

/-- The 64 blocks tile the 8192 rows, so the array ends holding the column. -/
theorem final9 (c : Dev nD) : (regionData (V1 m ρ) c).arrAt 9 cfg0.N = colY m ρ c :=
  (regionData (V1 m ρ) c).arrAt_eq_of_cover 9 (colY m ρ c) (fun t _ => flushed9_eq m ρ c t) fun i => by
    have h0 : (i 0).val < 8192 := (i 0).isLt
    have h1 : (i 1).val < 1 := (i 1).isLt
    have hN : cfg0.N = 64 := N_0
    have ht : (i 0).val / 128 < cfg0.N := by rw [hN]; omega
    have hi0 : win0_9.index ⟨(i 0).val / 128, ht⟩ (0 : Fin 2) = (i 0).val / 128 := (index_facts ⟨(i 0).val / 128, ht⟩).2.2.2.2.2.2.2.2.2.2.2.2.2.2.2.2.2.2.1
    have hi1 : win0_9.index ⟨(i 0).val / 128, ht⟩ (1 : Fin 2) = 0 := (index_facts ⟨(i 0).val / 128, ht⟩).2.2.2.2.2.2.2.2.2.2.2.2.2.2.2.2.2.2.2.1
    refine ⟨⟨(i 0).val / 128, ht⟩, flush0_9 _, ?_⟩
    show i ∈ ((View.whole main_v10_1).slice (win0_9.rect ⟨(i 0).val / 128, ht⟩)).set
    rw [View.set_slice_whole, Rect.mem_set_unit]
    intro a
    match a with
    | ⟨0, _⟩ =>
      show win0_9.index ⟨(i 0).val / 128, ht⟩ (0 : Fin 2) * 128 ≤ (i 0).val ∧ (i 0).val < win0_9.index ⟨(i 0).val / 128, ht⟩ (0 : Fin 2) * 128 + 128
      rw [hi0]; omega
    | ⟨1, _⟩ =>
      show win0_9.index ⟨(i 0).val / 128, ht⟩ (1 : Fin 2) * 1 ≤ (i 1).val ∧ (i 1).val < win0_9.index ⟨(i 0).val / 128, ht⟩ (1 : Fin 2) * 1 + 1
      rw [hi1]; omega

/-- The 64 blocks tile the 8192 rows, so the array ends holding the column. -/
theorem final10 (c : Dev nD) : (regionData (V1 m ρ) c).arrAt 10 cfg0.N = colXY m ρ c :=
  (regionData (V1 m ρ) c).arrAt_eq_of_cover 10 (colXY m ρ c) (fun t _ => flushed10_eq m ρ c t) fun i => by
    have h0 : (i 0).val < 8192 := (i 0).isLt
    have h1 : (i 1).val < 1 := (i 1).isLt
    have hN : cfg0.N = 64 := N_0
    have ht : (i 0).val / 128 < cfg0.N := by rw [hN]; omega
    have hi0 : win0_10.index ⟨(i 0).val / 128, ht⟩ (0 : Fin 2) = (i 0).val / 128 := (index_facts ⟨(i 0).val / 128, ht⟩).2.2.2.2.2.2.2.2.2.2.2.2.2.2.2.2.2.2.2.2.1
    have hi1 : win0_10.index ⟨(i 0).val / 128, ht⟩ (1 : Fin 2) = 0 := (index_facts ⟨(i 0).val / 128, ht⟩).2.2.2.2.2.2.2.2.2.2.2.2.2.2.2.2.2.2.2.2.2
    refine ⟨⟨(i 0).val / 128, ht⟩, flush0_10 _, ?_⟩
    show i ∈ ((View.whole main_v10_2).slice (win0_10.rect ⟨(i 0).val / 128, ht⟩)).set
    rw [View.set_slice_whole, Rect.mem_set_unit]
    intro a
    match a with
    | ⟨0, _⟩ =>
      show win0_10.index ⟨(i 0).val / 128, ht⟩ (0 : Fin 2) * 128 ≤ (i 0).val ∧ (i 0).val < win0_10.index ⟨(i 0).val / 128, ht⟩ (0 : Fin 2) * 128 + 128
      rw [hi0]; omega
    | ⟨1, _⟩ =>
      show win0_10.index ⟨(i 0).val / 128, ht⟩ (1 : Fin 2) * 1 ≤ (i 1).val ∧ (i 1).val < win0_10.index ⟨(i 0).val / 128, ht⟩ (1 : Fin 2) * 1 + 1
      rw [hi1]; omega

end Arrays

end Cert.KernelIdeal.Region

end
-- ==== Proof.Spec.lean ====
/-
  The two programs' results as functions of two weight matrices. With A the 8192×8192 matrix of Gaussian weights of x
  and B that of y, the kernel's program folds the row sums of A, of B and of their entrywise product into
  −((Σ A·B − (1/4096)·Σᵢ rowᵢ(A)·rowᵢ(B)) + (Σ A)(Σ B)/67108864), and the reference sums the product of the doubly centred
  matrices; both then add the same penalty of the third argument. The weights themselves: the kernel multiplies the
  clamped squared distance by the negated reciprocal bandwidth factor, the reference negates it and divides.
-/
import Idealize.ShloMosaic.PureOps.Ideal.Laws
import Idealize.ShloMosaic.Lib.ValueIdx

noncomputable section

open scoped BigOperators

namespace Cert.Spec

open Idealize.ShloMosaic Idealize.ShloMosaic.ValueIdx

/-- The squared norm of row `i`, summed from the zero word. -/
def sqn {d : ℕ} (z : (⟨2, ![8192, d]⟩ : Shape).Idx → EReal) (i : Fin 8192) : EReal :=
  Ideal.ofBits .f32 0x00000000#32 + ∑ k : Fin d, z (ix2 i k) * z (ix2 i k)

/-- The squared distance of rows `i` and `j` by the norms and the inner product, clamped at zero. -/
def dist2 {d : ℕ} (z : (⟨2, ![8192, d]⟩ : Shape).Idx → EReal) (i j : Fin 8192) : EReal :=
  max ((sqn z i + sqn z j) - Ideal.ofBits .f32 0x40000000#32 * ∑ k : Fin d, z (ix2 i k) * z (ix2 j k)) (Ideal.ofBits .f32 0x00000000#32)

/-- The Gaussian weight as the kernel forms it: the clamped squared distance times a negative factor. -/
def gw {d : ℕ} (c : EReal) (z : (⟨2, ![8192, d]⟩ : Shape).Idx → EReal) (i j : Fin 8192) : EReal :=
  Ideal.exp (dist2 z i j * c)

/-- The Gaussian weight as the reference forms it: the negated clamped squared distance over a divisor. -/
def gwR {d : ℕ} (c : EReal) (z : (⟨2, ![8192, d]⟩ : Shape).Idx → EReal) (i j : Fin 8192) : EReal :=
  Ideal.exp (Ideal.div (-(dist2 z i j)) c)

/-- The penalty both programs add: a constant times the sum of the third argument's absolute values. -/
def penalty (b : (⟨1, ![128]⟩ : Shape).Idx → EReal) : EReal :=
  Ideal.ofBits .f32 0x3A83126F#32 * (Ideal.ofBits .f32 0x00000000#32 + ∑ k, max (b k) (-(b k)))

/-- The kernel's program, from the weight matrices. -/
def lossK (A B : Fin 8192 → Fin 8192 → EReal) (b : (⟨1, ![128]⟩ : Shape).Idx → EReal) : EReal :=
  -(((Ideal.ofBits .f32 0x00000000#32 + ∑ i, ∑ j, A i j * B i j)
        - Ideal.ofBits .f32 0x39800000#32 * (Ideal.ofBits .f32 0x00000000#32 + ∑ i, (∑ j, A i j) * (∑ j, B i j)))
      + Ideal.div ((Ideal.ofBits .f32 0x00000000#32 + ∑ i, ∑ j, A i j) * (Ideal.ofBits .f32 0x00000000#32 + ∑ i, ∑ j, B i j))
          (Ideal.ofBits .f32 0x4C800000#32)) + penalty b

/-- An entry of the doubly centred matrix: less its row mean, less its column mean, plus the total mean. -/
def centered (A : Fin 8192 → Fin 8192 → EReal) (i j : Fin 8192) : EReal :=
  ((A i j - Ideal.div (Ideal.ofBits .f32 0x00000000#32 + ∑ l, A i l) (Ideal.ofBits .f32 0x46000000#32))
      - Ideal.div (Ideal.ofBits .f32 0x00000000#32 + ∑ l, A l j) (Ideal.ofBits .f32 0x46000000#32))
    + Ideal.div (Ideal.ofBits .f32 0x00000000#32 + ∑ k, ∑ l, A k l) (Ideal.ofBits .f32 0x4C800000#32)

/-- The reference's program, from the weight matrices. -/
def lossR (A B : Fin 8192 → Fin 8192 → EReal) (b : (⟨1, ![128]⟩ : Shape).Idx → EReal) : EReal :=
  -(Ideal.ofBits .f32 0x00000000#32 + ∑ i, ∑ j, centered A i j * centered B i j) + penalty b

end Cert.Spec

end
-- ==== Proof.IdealValue.lean ====
/-
  The kernel's program, read. The region finds x and y as given (a change of format is the identity at the ideal
  values) and each row's squared norm both as a column and as a row, so the three output columns are the row sums
  of the Gaussian weights of x, of y, and of their products; the host operations after the region fold them into
  the closed form of the two weight matrices.
-/
import proofs.«104605_j13073880449542_2_alg».proof.Proof.IdealBlocks
import proofs.«104605_j13073880449542_2_alg».proof.Proof.Spec
import Idealize.ShloMosaic.Lib.StableHlo.Run

set_option maxRecDepth 16384

noncomputable section

open scoped BigOperators

namespace Cert.KernelIdeal.Region

open Cert.KernelIdeal Cert.KernelIdeal.Gen Cert.KernelIdeal.Payload
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The arguments, as arrays of extended reals. -/
abbrev argX (c : Dev nD) : (⟨2, ![8192, 128]⟩ : Shape).Idx → EReal := m ((c : Thread nD τ).loc main_arg0)
abbrev argY (c : Dev nD) : (⟨2, ![8192, 16]⟩ : Shape).Idx → EReal := m ((c : Thread nD τ).loc main_arg1)
abbrev argB (c : Dev nD) : (⟨1, ![128]⟩ : Shape).Idx → EReal := m ((c : Thread nD τ).loc main_arg2)

/-! ## What the region finds -/

theorem entX_eq (c : Dev nD) : entX m ρ c = argX m c := by
  show StableHlo.after hostOps0 (W0 m ρ c) (Proc.devRef .tc main_v0) = _
  after_results
  rfl

theorem entY_eq (c : Dev nD) : entY m ρ c = argY m c := by
  show StableHlo.after hostOps0 (W0 m ρ c) (Proc.devRef .tc main_v1) = _
  after_results
  rfl

theorem entQxc_apply (c : Dev nD) (i : Fin 8192) : entQxc m ρ c (ix2 i (0 : Fin 1)) = Spec.sqn (argX m c) i := by
  have e : entQxc m ρ c = shapeCast S8192x1 (Host.reduceAdd (F := Ideal) (mulf (argX m c) (argX m c)) (constant S_ .f32 0x00000000#32) reducesTo_S8192x128_S8192_d1 h_S_) shapeCasts_S8192_S8192x1 := by
    show StableHlo.after hostOps0 (W0 m ρ c) (Proc.devRef .tc main_v6) = _
    after_results
    rfl
  rw [e, Cert.LibRows.shapeCast_a_a1_apply]
  exact Cert.LibGram.hostLaneSum_apply _ _ reducesTo_S8192x128_S8192_d1 (by decide) h_S_ i

theorem entQxr_apply (c : Dev nD) (j : Fin 8192) : entQxr m ρ c (ix2 (0 : Fin 1) j) = Spec.sqn (argX m c) j := by
  have e : entQxr m ρ c = shapeCast S1x8192 (Host.reduceAdd (F := Ideal) (mulf (argX m c) (argX m c)) (constant S_ .f32 0x00000000#32) reducesTo_S8192x128_S8192_d1 h_S_) shapeCasts_S8192_S1x8192 := by
    show StableHlo.after hostOps0 (W0 m ρ c) (Proc.devRef .tc main_v7) = _
    after_results
    rfl
  rw [e, shapeCast_a_1a_apply]
  exact Cert.LibGram.hostLaneSum_apply _ _ reducesTo_S8192x128_S8192_d1 (by decide) h_S_ j

theorem entQyc_apply (c : Dev nD) (i : Fin 8192) : entQyc m ρ c (ix2 i (0 : Fin 1)) = Spec.sqn (argY m c) i := by
  have e : entQyc m ρ c = shapeCast S8192x1 (Host.reduceAdd (F := Ideal) (mulf (argY m c) (argY m c)) (constant S_ .f32 0x00000000#32) reducesTo_S8192x16_S8192_d1 h_S_) shapeCasts_S8192_S8192x1 := by
    show StableHlo.after hostOps0 (W0 m ρ c) (Proc.devRef .tc main_v8) = _
    after_results
    rfl
  rw [e, Cert.LibRows.shapeCast_a_a1_apply]
  exact Cert.LibGram.hostLaneSum_apply _ _ reducesTo_S8192x16_S8192_d1 (by decide) h_S_ i

theorem entQyr_apply (c : Dev nD) (j : Fin 8192) : entQyr m ρ c (ix2 (0 : Fin 1) j) = Spec.sqn (argY m c) j := by
  have e : entQyr m ρ c = shapeCast S1x8192 (Host.reduceAdd (F := Ideal) (mulf (argY m c) (argY m c)) (constant S_ .f32 0x00000000#32) reducesTo_S8192x16_S8192_d1 h_S_) shapeCasts_S8192_S1x8192 := by
    show StableHlo.after hostOps0 (W0 m ρ c) (Proc.devRef .tc main_v9) = _
    after_results
    rfl
  rw [e, shapeCast_a_1a_apply]
  exact Cert.LibGram.hostLaneSum_apply _ _ reducesTo_S8192x16_S8192_d1 (by decide) h_S_ j

/-- The weights read off the region's arrays are the weights of x, -/
theorem pairWeight_x (c : Dev nD) (i j : Fin 8192) :
    pairWeight (Ideal.ofBits .f32 0xBC000000#32) (entX m ρ c) (entQxc m ρ c) (entQxr m ρ c) i j
      = Spec.gw (Ideal.ofBits .f32 0xBC000000#32) (argX m c) i j := by
  unfold pairWeight Spec.gw Spec.dist2
  rw [entQxc_apply, entQxr_apply, entX_eq]

/-- and of y. -/
theorem pairWeight_y (c : Dev nD) (i j : Fin 8192) :
    pairWeight (Ideal.ofBits .f32 0xBD000000#32) (entY m ρ c) (entQyc m ρ c) (entQyr m ρ c) i j
      = Spec.gw (Ideal.ofBits .f32 0xBD000000#32) (argY m c) i j := by
  unfold pairWeight Spec.gw Spec.dist2
  rw [entQyc_apply, entQyr_apply, entY_eq]

/-! ## The host operations after the region -/

/-- The second host stretch as one function of the three columns and the third argument. -/
def fold (a b ab : (⟨2, ![8192, 1]⟩ : Shape).Idx → EReal) (β : (⟨1, ![128]⟩ : Shape).Idx → EReal) : (⟨0, ![]⟩ : Shape).Idx → EReal :=
  addf (F := Ideal) (φ := .f32)
    (Host.negf (addf (subf (Host.reduceAdd ab (constant S_ .f32 0x00000000#32) reducesTo_S8192x1_S_d0_1 h_S_)
        (mulf (constant S_ .f32 0x39800000#32) (Host.reduceAdd (mulf a b) (constant S_ .f32 0x00000000#32) reducesTo_S8192x1_S_d0_1 h_S_)))
      (Host.divf (mulf (Host.reduceAdd a (constant S_ .f32 0x00000000#32) reducesTo_S8192x1_S_d0_1 h_S_)
          (Host.reduceAdd b (constant S_ .f32 0x00000000#32) reducesTo_S8192x1_S_d0_1 h_S_)) (constant S_ .f32 0x4C800000#32))))
    (mulf (constant S_ .f32 0x3A83126F#32) (Host.reduceAdd (Host.absf β) (constant S_ .f32 0x00000000#32) reducesTo_S128_S_d0 h_S_))

/-- A column's sum over all its entries is the sum over its rows. -/
theorem sum_col (f : (⟨2, ![8192, 1]⟩ : Shape).Idx → EReal) : ∑ i, f i = ∑ r : Fin 8192, f (ix2 r (0 : Fin 1)) := by
  rw [sum_idx2]
  exact Finset.sum_congr rfl fun r _ => Fin.sum_univ_one _

/-- The fold at its one index, for columns that are row sums of two weight matrices and of their product. -/
theorem fold_apply (A B : Fin 8192 → Fin 8192 → EReal) (a b ab : (⟨2, ![8192, 1]⟩ : Shape).Idx → EReal) (β : (⟨1, ![128]⟩ : Shape).Idx → EReal)
    (ha : ∀ r, a (ix2 r (0 : Fin 1)) = ∑ j, A r j) (hb : ∀ r, b (ix2 r (0 : Fin 1)) = ∑ j, B r j)
    (hab : ∀ r, ab (ix2 r (0 : Fin 1)) = ∑ j, A r j * B r j) (j : (⟨0, ![]⟩ : Shape).Idx) :
    fold a b ab β j = Spec.lossK A B β := by
  unfold fold Spec.lossK Spec.penalty
  show -(((Host.reduceAdd (F := Ideal) ab (constant S_ .f32 0x00000000#32) reducesTo_S8192x1_S_d0_1 h_S_ j)
        - Ideal.ofBits .f32 0x39800000#32 * (Host.reduceAdd (F := Ideal) (mulf a b) (constant S_ .f32 0x00000000#32) reducesTo_S8192x1_S_d0_1 h_S_ j))
      + Ideal.div ((Host.reduceAdd (F := Ideal) a (constant S_ .f32 0x00000000#32) reducesTo_S8192x1_S_d0_1 h_S_ j)
          * (Host.reduceAdd (F := Ideal) b (constant S_ .f32 0x00000000#32) reducesTo_S8192x1_S_d0_1 h_S_ j)) (Ideal.ofBits .f32 0x4C800000#32))
      + Ideal.ofBits .f32 0x3A83126F#32 * (Host.reduceAdd (F := Ideal) (Host.absf β) (constant S_ .f32 0x00000000#32) reducesTo_S128_S_d0 h_S_ j) = _
  rw [Cert.LibGram.hostTotalSum_apply, Cert.LibGram.hostTotalSum_apply, Cert.LibGram.hostTotalSum_apply, Cert.LibGram.hostTotalSum_apply,
    Cert.LibGram.hostTotalSum_apply, sum_col, sum_col, sum_col, sum_col]
  simp only [ha, hb, hab, mulf_apply]
  rfl

/-! ## The kernel's result -/

set_option maxHeartbeats 8000000 in
/-- The program's result buffer ends holding the closed form of the weight matrices of x and of y. -/
theorem result_eq (c : Dev nD) (j : (⟨0, ![]⟩ : Shape).Idx) :
    (W3 m ρ c (Proc.devRef .tc main_v25) : (⟨0, ![]⟩ : Shape).Idx → EReal) j
      = Spec.lossK (Spec.gw (Ideal.ofBits .f32 0xBC000000#32) (argX m c)) (Spec.gw (Ideal.ofBits .f32 0xBD000000#32) (argY m c)) (argB m c) := by
  have e : (W3 m ρ c (Proc.devRef .tc main_v25) : (⟨0, ![]⟩ : Shape).Idx → EReal)
      = fold (W2 m ρ c (Proc.devRef .tc main_v10_0)) (W2 m ρ c (Proc.devRef .tc main_v10_1)) (W2 m ρ c (Proc.devRef .tc main_v10_2)) (W2 m ρ c (Proc.devRef .tc main_arg2)) := by
    show StableHlo.after hostOps1 (W2 m ρ c) (Proc.devRef .tc main_v25) = _
    after_results
    rfl
  rw [e, W2_out0, W2_out1, W2_out2, final8, final9, final10, W2_of_ne m ρ c main_arg2 (by decide) (by decide) (by decide)]
  have hB : (W1 m ρ c (Proc.devRef .tc main_arg2) : (⟨1, ![128]⟩ : Shape).Idx → EReal) = argB m c := by
    show StableHlo.after hostOps0 (W0 m ρ c) (Proc.devRef .tc main_arg2) = _
    after_results
    try rfl
  rw [hB]
  exact fold_apply _ _ _ _ _ _
    (fun r => by unfold colX; exact Finset.sum_congr rfl fun j _ => pairWeight_x m ρ c r j)
    (fun r => by unfold colY; exact Finset.sum_congr rfl fun j _ => pairWeight_y m ρ c r j)
    (fun r => by unfold colXY; exact Finset.sum_congr rfl fun j _ => by rw [pairWeight_x, pairWeight_y]) j

end Cert.KernelIdeal.Region

end
-- ==== Proof.RefValue.lean ====
/-
  The reference's program, read. Stage by stage off the generated read-at-an-index lemmas: each row's squared norm,
  the Gaussian weight of rows a and b (the negated clamped squared distance over the divisor, exponentiated), the
  doubly centred entry (less the row mean, less the column mean, plus the total mean), and the result: minus the sum
  over all pairs of the product of the two centred matrices, plus the penalty.
-/
import proofs.«104605_j13073880449542_2_alg».proof.Proof.Gen.ReferenceIdeal.Read
import proofs.«104605_j13073880449542_2_alg».proof.Proof.Spec

set_option maxRecDepth 16384

noncomputable section

open scoped BigOperators

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx

/-- A row's squared norm (x). -/
theorem sq_x (x0 : (⟨S8192x128, .f32⟩ : BufTy).Contents (Elt Ideal)) (i : Fin 8192) : val_main_v1 (F := Ideal) x0 (ix1 i) = Spec.sqn x0 i := by
  rw [val_main_v1_apply]
  unfold Spec.sqn
  refine congrArg₂ (· + ·) rfl (Finset.sum_congr rfl fun k _ => ?_)
  rw [val_main_v0_apply, show idx_main_v1 (ix1 i) k = ix2 i k from funext fun d => Fin.ext (by match d with | ⟨0, _⟩ => rfl | ⟨1, _⟩ => rfl)]
  rfl

/-- The Gaussian weight of rows `a` and `b` (x). -/
theorem weight_x (x0 : (⟨S8192x128, .f32⟩ : BufTy).Contents (Elt Ideal)) (a b : Fin 8192) :
    val_main_v17 (F := Ideal) x0 (ix2 a b) = Spec.gwR (Ideal.ofBits .f32 0x43000000#32) x0 a b := by
  rw [val_main_v17_apply, val_main_v16_apply, val_main_v14_apply, val_main_v13_apply, val_main_v11_apply, val_main_v6_apply, val_main_v4_apply, val_main_v2_apply,
    val_main_v5_apply, val_main_v3_apply, val_main_v10_apply, val_main_v9_apply, val_main_v8_apply, val_main_v12_apply, val_main_v15_apply]
  have e1 : idx_main_v2 (idx_main_v4 (ix2 a b)) = ix1 a := funext fun d => Fin.ext (by match d with | ⟨0, _⟩ => rfl)
  have e2 : idx_main_v3 (idx_main_v5 (ix2 a b)) = ix1 b := funext fun d => Fin.ext (by match d with | ⟨0, _⟩ => rfl)
  have e3 : ∀ k : Fin 128, lidx_main_v8 (ix2 a b) k = ix2 a k := fun k => funext fun d => Fin.ext (by match d with | ⟨0, _⟩ => rfl | ⟨1, _⟩ => rfl)
  have e4 : ∀ k : Fin 128, idx_main_v7 (ridx_main_v8 (ix2 a b) k) = ix2 b k := fun k => funext fun d => Fin.ext (by match d with | ⟨0, _⟩ => rfl | ⟨1, _⟩ => rfl)
  rw [e1, e2, sq_x, sq_x]
  simp only [val_main_v7_apply, e3, e4]
  rfl

/-- A row's squared norm (y). -/
theorem sq_y (x1 : (⟨S8192x16, .f32⟩ : BufTy).Contents (Elt Ideal)) (i : Fin 8192) : val_main_v19 (F := Ideal) x1 (ix1 i) = Spec.sqn x1 i := by
  rw [val_main_v19_apply]
  unfold Spec.sqn
  refine congrArg₂ (· + ·) rfl (Finset.sum_congr rfl fun k _ => ?_)
  rw [val_main_v18_apply, show idx_main_v19 (ix1 i) k = ix2 i k from funext fun d => Fin.ext (by match d with | ⟨0, _⟩ => rfl | ⟨1, _⟩ => rfl)]
  rfl

/-- The Gaussian weight of rows `a` and `b` (y). -/
theorem weight_y (x1 : (⟨S8192x16, .f32⟩ : BufTy).Contents (Elt Ideal)) (a b : Fin 8192) :
    val_main_v35 (F := Ideal) x1 (ix2 a b) = Spec.gwR (Ideal.ofBits .f32 0x42000000#32) x1 a b := by
  rw [val_main_v35_apply, val_main_v34_apply, val_main_v32_apply, val_main_v31_apply, val_main_v29_apply, val_main_v24_apply, val_main_v22_apply, val_main_v20_apply,
    val_main_v23_apply, val_main_v21_apply, val_main_v28_apply, val_main_v27_apply, val_main_v26_apply, val_main_v30_apply, val_main_v33_apply]
  have e1 : idx_main_v20 (idx_main_v22 (ix2 a b)) = ix1 a := funext fun d => Fin.ext (by match d with | ⟨0, _⟩ => rfl)
  have e2 : idx_main_v21 (idx_main_v23 (ix2 a b)) = ix1 b := funext fun d => Fin.ext (by match d with | ⟨0, _⟩ => rfl)
  have e3 : ∀ k : Fin 16, lidx_main_v26 (ix2 a b) k = ix2 a k := fun k => funext fun d => Fin.ext (by match d with | ⟨0, _⟩ => rfl | ⟨1, _⟩ => rfl)
  have e4 : ∀ k : Fin 16, idx_main_v25 (ridx_main_v26 (ix2 a b) k) = ix2 b k := fun k => funext fun d => Fin.ext (by match d with | ⟨0, _⟩ => rfl | ⟨1, _⟩ => rfl)
  rw [e1, e2, sq_y, sq_y]
  simp only [val_main_v25_apply, e3, e4]
  rfl

/-- The doubly centred entry (x). -/
theorem centered_x (x0 : (⟨S8192x128, .f32⟩ : BufTy).Contents (Elt Ideal)) (a b : Fin 8192) :
    val_main_v51 (F := Ideal) x0 (ix2 a b) = Spec.centered (fun i j => val_main_v17 (F := Ideal) x0 (ix2 i j)) a b := by
  rw [val_main_v51_apply, val_main_v49_apply, val_main_v47_apply, val_main_v46_apply, val_main_v39_apply, val_main_v37_apply, val_main_v36_apply, val_main_v38_apply,
    val_main_v48_apply, val_main_v43_apply, val_main_v41_apply, val_main_v40_apply, val_main_v42_apply, val_main_v50_apply, val_main_v45_apply, val_main_v44_apply, sum_idx2]
  have e1 : ∀ k : Fin 8192, idx_main_v36 (idx_main_v37 (idx_main_v46 (ix2 a b))) k = ix2 a k := fun k => funext fun d => Fin.ext (by match d with | ⟨0, _⟩ => rfl | ⟨1, _⟩ => rfl)
  have e2 : ∀ k : Fin 8192, idx_main_v40 (idx_main_v41 (idx_main_v48 (ix2 a b))) k = ix2 k b := fun k => funext fun d => Fin.ext (by match d with | ⟨0, _⟩ => rfl | ⟨1, _⟩ => rfl)
  simp only [e1, e2]
  rfl

/-- The doubly centred entry (y). -/
theorem centered_y (x1 : (⟨S8192x16, .f32⟩ : BufTy).Contents (Elt Ideal)) (a b : Fin 8192) :
    val_main_v67 (F := Ideal) x1 (ix2 a b) = Spec.centered (fun i j => val_main_v35 (F := Ideal) x1 (ix2 i j)) a b := by
  rw [val_main_v67_apply, val_main_v65_apply, val_main_v63_apply, val_main_v62_apply, val_main_v55_apply, val_main_v53_apply, val_main_v52_apply, val_main_v54_apply,
    val_main_v64_apply, val_main_v59_apply, val_main_v57_apply, val_main_v56_apply, val_main_v58_apply, val_main_v66_apply, val_main_v61_apply, val_main_v60_apply, sum_idx2]
  have e1 : ∀ k : Fin 8192, idx_main_v52 (idx_main_v53 (idx_main_v62 (ix2 a b))) k = ix2 a k := fun k => funext fun d => Fin.ext (by match d with | ⟨0, _⟩ => rfl | ⟨1, _⟩ => rfl)
  have e2 : ∀ k : Fin 8192, idx_main_v56 (idx_main_v57 (idx_main_v64 (ix2 a b))) k = ix2 k b := fun k => funext fun d => Fin.ext (by match d with | ⟨0, _⟩ => rfl | ⟨1, _⟩ => rfl)
  simp only [e1, e2]
  rfl

/-- THE RESULT: minus the sum over all pairs of the products of the centred entries, plus the penalty. -/
theorem result_eq (x0 : (⟨S8192x128, .f32⟩ : BufTy).Contents (Elt Ideal)) (x1 : (⟨S8192x16, .f32⟩ : BufTy).Contents (Elt Ideal))
    (x2 : (⟨S128, .f32⟩ : BufTy).Contents (Elt Ideal)) (j : S_.Idx) :
    val_main_v74 (F := Ideal) x0 x1 x2 j
      = Spec.lossR (Spec.gwR (Ideal.ofBits .f32 0x43000000#32) x0) (Spec.gwR (Ideal.ofBits .f32 0x42000000#32) x1) x2 := by
  rw [val_main_v74_apply, val_main_v70_apply, val_main_v69_apply, val_main_v73_apply, val_main_v72_apply, sum_idx2]
  have h : ∀ a b : Fin 8192, val_main_v68 (F := Ideal) x0 x1 (ix2 a b)
      = Spec.centered (Spec.gwR (Ideal.ofBits .f32 0x43000000#32) x0) a b * Spec.centered (Spec.gwR (Ideal.ofBits .f32 0x42000000#32) x1) a b := fun a b => by
    rw [val_main_v68_apply, centered_x, centered_y]
    simp only [weight_x, weight_y]
    rfl
  simp only [h]
  rfl

end Cert.ReferenceIdeal.RefValue

end
-- ==== Proof.Consts.lean ====
/-
  The float constants the two programs spell, as the extended reals their patterns denote at the ideal values: the
  bandwidth factors −1/128 and −1/32 of the kernel against the reference's divisors 128 and 32, the row count 8192
  and its square 67108864 the means divide by, and 1/4096 = 2/8192.
-/
import Idealize.ShloMosaic.PureOps.Ideal

noncomputable section

namespace Cert.Consts

open Idealize.ShloMosaic

theorem ofBits_neg_inv128 : Ideal.ofBits .f32 0xBC000000#32 = ((-(1 / 128) : ℝ) : EReal) := by
  simp [Ideal.ofBits, Ideal.ieee, -EReal.coe_mul]; norm_num
theorem ofBits_neg_inv32 : Ideal.ofBits .f32 0xBD000000#32 = ((-(1 / 32) : ℝ) : EReal) := by
  simp [Ideal.ofBits, Ideal.ieee, -EReal.coe_mul]; norm_num
theorem ofBits_128 : Ideal.ofBits .f32 0x43000000#32 = ((128 : ℝ) : EReal) := by
  simp [Ideal.ofBits, Ideal.ieee, -EReal.coe_mul]; norm_num
theorem ofBits_32 : Ideal.ofBits .f32 0x42000000#32 = ((32 : ℝ) : EReal) := by
  simp [Ideal.ofBits, Ideal.ieee, -EReal.coe_mul]; norm_num
theorem ofBits_inv4096 : Ideal.ofBits .f32 0x39800000#32 = ((1 / 4096 : ℝ) : EReal) := by
  simp [Ideal.ofBits, Ideal.ieee, -EReal.coe_mul]; norm_num
theorem ofBits_sq8192 : Ideal.ofBits .f32 0x4C800000#32 = ((67108864 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_8192 : Ideal.ofBits .f32 0x46000000#32 = ((8192 : ℝ) : EReal) := by
  simp [Ideal.ofBits, Ideal.ieee, -EReal.coe_mul]; norm_num

end Cert.Consts

end
-- ==== Proof.LibCentering.lean ====
/-
  Double centering of symmetric kernels. For symmetric real matrices A and B over a finite index set of N elements,
  with row sums u and v, the sum over all pairs of the product of the doubly centred entries
  (A i j − u i / N − u j / N + (Σ u) / N²) · (B i j − v i / N − v j / N + (Σ v) / N²)
  is  Σ A i j · B i j − (2/N) · Σ u i · v i + (Σ u)(Σ v) / N².
  The centred matrix has zero row and column sums, so only the uncentred B survives against it, and symmetry makes
  a column sum the row sum of the same index.
-/
import Mathlib

namespace Centering

open Finset

variable {ι : Type} [Fintype ι]

/-- The sum over all pairs of the product of the two doubly centred matrices, the centring spelt with row sums,
    column sums and the total, each divided as the means are (by `N`, and the total by `M = N·N`). -/
theorem sum_centered_mul (A B : ι → ι → ℝ) (hA : ∀ i j, A i j = A j i) (hB : ∀ i j, B i j = B j i)
    (N M c : ℝ) (hN : (Fintype.card ι : ℝ) = N) (hN0 : N ≠ 0) (hM : M = N * N) (hc : c = 2 / N) :
    ∑ i, ∑ j, (A i j - (∑ l, A i l) / N - (∑ l, A l j) / N + (∑ k, ∑ l, A k l) / M) *
              (B i j - (∑ l, B i l) / N - (∑ l, B l j) / N + (∑ k, ∑ l, B k l) / M)
    = ((∑ i, ∑ j, A i j * B i j) - c * (∑ i, (∑ j, A i j) * (∑ j, B i j)))
        + ((∑ i, ∑ j, A i j) * (∑ i, ∑ j, B i j)) / M := by
  set u : ι → ℝ := fun i => ∑ l, A i l with hu
  set v : ι → ℝ := fun i => ∑ l, B i l with hv
  have colA : ∀ j, ∑ l, A l j = u j := fun j => Finset.sum_congr rfl fun l _ => hA l j
  have colB : ∀ j, ∑ l, B l j = v j := fun j => Finset.sum_congr rfl fun l _ => hB l j
  set S : ℝ := ∑ i, u i with hS
  set T : ℝ := ∑ i, v i with hT
  set D : ℝ := ∑ i, u i * v i with hD
  set P : ℝ := ∑ i, ∑ j, A i j * B i j with hP
  have hM0 : M ≠ 0 := by rw [hM]; exact mul_ne_zero hN0 hN0
  simp only [colA, colB]
  -- the sixteen monomials of the product, pair by pair
  have expand : ∀ i j, (A i j - u i / N - u j / N + S / M) * (B i j - v i / N - v j / N + T / M)
      = A i j * B i j - (1/N) * (A i j * v i) - (1/N) * (A i j * v j) + (T/M) * A i j
        - (1/N) * (u i * B i j) + (1/(N*N)) * (u i * v i) + (1/(N*N)) * (u i * v j) - (T/(N*M)) * u i
        - (1/N) * (u j * B i j) + (1/(N*N)) * (u j * v i) + (1/(N*N)) * (u j * v j) - (T/(N*M)) * u j
        + (S/M) * B i j - (S/(N*M)) * v i - (S/(N*M)) * v j + S*T/(M*M) := by
    intro i j; field_simp; ring
  have s1 : ∑ i, ∑ j, A i j * v i = D := Finset.sum_congr rfl fun i _ => (Finset.sum_mul _ _ _).symm
  have s2 : ∑ i, ∑ j, A i j * v j = D := by
    rw [Finset.sum_comm]; exact Finset.sum_congr rfl fun j _ => by rw [← Finset.sum_mul, colA]
  have s3 : ∑ i, ∑ j, A i j = S := rfl
  have s4 : ∑ i, ∑ j, u i * B i j = D := Finset.sum_congr rfl fun i _ => (Finset.mul_sum _ _ _).symm
  have s5 : ∑ i, ∑ _j : ι, u i * v i = N * D := by
    simp only [Finset.sum_const, Finset.card_univ, nsmul_eq_mul, hN]; rw [← Finset.mul_sum]; try rfl
  have s6 : ∑ i, ∑ j, u i * v j = S * T := (Finset.sum_mul_sum _ _ _ _).symm
  have s7 : ∑ i, ∑ _j : ι, u i = N * S := by
    simp only [Finset.sum_const, Finset.card_univ, nsmul_eq_mul, hN]; rw [← Finset.mul_sum]; try rfl
  have s8 : ∑ i, ∑ j, u j * B i j = D := by
    rw [Finset.sum_comm]; exact Finset.sum_congr rfl fun j _ => by rw [← Finset.mul_sum, colB]
  have s9 : ∑ i, ∑ j, u j * v i = S * T := by
    rw [Finset.sum_comm]; exact (Finset.sum_mul_sum _ _ _ _).symm
  have s10 : ∑ _i : ι, ∑ j, u j * v j = N * D := by
    simp only [Finset.sum_const, Finset.card_univ, nsmul_eq_mul, hN]; try rfl
  have s11 : ∑ _i : ι, ∑ j, u j = N * S := by
    simp only [Finset.sum_const, Finset.card_univ, nsmul_eq_mul, hN]; try rfl
  have s12 : ∑ i, ∑ j, B i j = T := rfl
  have s13 : ∑ i, ∑ _j : ι, v i = N * T := by
    simp only [Finset.sum_const, Finset.card_univ, nsmul_eq_mul, hN]; rw [← Finset.mul_sum]; try rfl
  have s14 : ∑ _i : ι, ∑ j, v j = N * T := by
    simp only [Finset.sum_const, Finset.card_univ, nsmul_eq_mul, hN]; try rfl
  have s15 : ∑ _i : ι, ∑ _j : ι, S*T/(M*M) = N * (N * (S*T/(M*M))) := by
    simp only [Finset.sum_const, Finset.card_univ, nsmul_eq_mul, hN]
  have total : ∑ i, ∑ j, (A i j - u i / N - u j / N + S / M) * (B i j - v i / N - v j / N + T / M)
      = P - (1/N) * (∑ i, ∑ j, A i j * v i) - (1/N) * (∑ i, ∑ j, A i j * v j) + (T/M) * (∑ i, ∑ j, A i j)
        - (1/N) * (∑ i, ∑ j, u i * B i j) + (1/(N*N)) * (∑ i, ∑ _j : ι, u i * v i) + (1/(N*N)) * (∑ i, ∑ j, u i * v j) - (T/(N*M)) * (∑ i, ∑ _j : ι, u i)
        - (1/N) * (∑ i, ∑ j, u j * B i j) + (1/(N*N)) * (∑ i, ∑ j, u j * v i) + (1/(N*N)) * (∑ _i : ι, ∑ j, u j * v j) - (T/(N*M)) * (∑ _i : ι, ∑ j, u j)
        + (S/M) * (∑ i, ∑ j, B i j) - (S/(N*M)) * (∑ i, ∑ _j : ι, v i) - (S/(N*M)) * (∑ _i : ι, ∑ j, v j) + (∑ _i : ι, ∑ _j : ι, S*T/(M*M)) := by
    simp only [expand, hP, Finset.mul_sum, Finset.sum_add_distrib, Finset.sum_sub_distrib]
  rw [total, s1, s2, s3, s4, s5, s6, s7, s8, s9, s10, s11, s12, s13, s14, s15, hc]
  rw [hM]
  field_simp
  ring

end Centering
-- ==== Proof.Bridge.lean ====
/-
  The two programs agree on real symmetric weight matrices. Read in the reals, the reference's sum of products of
  doubly centred entries is the kernel's three-term closed form: the centring identity for symmetric matrices over
  8192 indices, with 2/8192 = 1/4096 and 8192² = 67108864. And the two spellings of a Gaussian weight agree: a product
  with −1/c is the negation divided by c.
-/
import proofs.«104605_j13073880449542_2_alg».proof.Proof.Spec
import proofs.«104605_j13073880449542_2_alg».proof.Proof.Consts
import proofs.«104605_j13073880449542_2_alg».proof.Proof.LibGram
import proofs.«104605_j13073880449542_2_alg».proof.Proof.LibCentering

set_option maxRecDepth 16384

noncomputable section

open scoped BigOperators

namespace Cert.Bridge

open Idealize.ShloMosaic Idealize.ShloMosaic.ValueIdx Cert.Spec

/-- On real symmetric matrices the kernel's closed form is the reference's centred sum. -/
theorem lossK_eq_lossR (α γ : Fin 8192 → Fin 8192 → ℝ) (hα : ∀ i j, α i j = α j i) (hγ : ∀ i j, γ i j = γ j i)
    (b : (⟨1, ![128]⟩ : Shape).Idx → EReal) :
    lossK (fun i j => (α i j : EReal)) (fun i j => (γ i j : EReal)) b
      = lossR (fun i j => (α i j : EReal)) (fun i j => (γ i j : EReal)) b := by
  unfold lossK lossR
  refine congrArg (fun t => -t + penalty b) ?_
  unfold centered
  simp only [Ideal.ofBits_zero_f32, zero_add, Cert.Consts.ofBits_inv4096, Cert.Consts.ofBits_sq8192, Cert.Consts.ofBits_8192,
    Ideal.div_coe (by norm_num : (8192 : ℝ) ≠ 0), Ideal.div_coe (by norm_num : (67108864 : ℝ) ≠ 0),
    ← EReal.coe_mul, ← Cert.LibGram.coe_sum, ← EReal.coe_sub, ← EReal.coe_add]
  rw [EReal.coe_eq_coe_iff]
  have h := Centering.sum_centered_mul α γ hα hγ 8192 67108864 (1 / 4096) (by simp) (by norm_num) (by norm_num) (by norm_num)
  simp only [mul_one_div]
  exact h.symm

/-- The kernel's product with −1/128 is the reference's negation divided by 128, -/
theorem gw_eq_gwR_x {d : ℕ} (z : (⟨2, ![8192, d]⟩ : Shape).Idx → EReal) (i j : Fin 8192) :
    gw (Ideal.ofBits .f32 0xBC000000#32) z i j = gwR (Ideal.ofBits .f32 0x43000000#32) z i j := by
  unfold gw gwR
  rw [Cert.Consts.ofBits_neg_inv128, Cert.Consts.ofBits_128, Ideal.div_coe (by norm_num : (128 : ℝ) ≠ 0), EReal.coe_neg, mul_neg, neg_mul]

/-- and the product with −1/32 the negation divided by 32. -/
theorem gw_eq_gwR_y {d : ℕ} (z : (⟨2, ![8192, d]⟩ : Shape).Idx → EReal) (i j : Fin 8192) :
    gw (Ideal.ofBits .f32 0xBD000000#32) z i j = gwR (Ideal.ofBits .f32 0x42000000#32) z i j := by
  unfold gw gwR
  rw [Cert.Consts.ofBits_neg_inv32, Cert.Consts.ofBits_32, Ideal.div_coe (by norm_num : (32 : ℝ) ≠ 0), EReal.coe_neg, mul_neg, neg_mul]

end Cert.Bridge

end
-- ==== Proof.Finite.lean ====
/-
  Finite inputs are real. The precondition says every entry of the three arguments is below +∞ in absolute value; an
  extended real whose absolute value is below +∞ is a real number. With real entries every squared norm, inner
  product and clamped distance is real, so each Gaussian weight is the real exponential of a real number, and the
  weight matrix is symmetric: the norms add in either order and the inner product is symmetric.
-/
import proofs.«104605_j13073880449542_2_alg».proof.Pre_finite_inputs
import proofs.«104605_j13073880449542_2_alg».proof.Proof.Spec
import proofs.«104605_j13073880449542_2_alg».proof.Proof.Consts
import proofs.«104605_j13073880449542_2_alg».proof.Proof.LibGram
import Idealize.ShloMosaic.Lib.ReduceAll
import Idealize.ShloMosaic.Lib.Affine

set_option maxRecDepth 16384

noncomputable section

open scoped BigOperators

namespace Cert.Finite

open Idealize.ShloMosaic Idealize.ShloMosaic.ValueIdx

instance : Subsingleton Cert.Pre_finite_inputs.S_.Idx := ⟨fun a b => funext fun d => d.elim0⟩

/-- An extended real whose absolute value is below the pattern of +∞ is a real number. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => exact absurd h (by simp [Ideal.cmp])
  | coe r => exact ⟨r, rfl⟩
  | top => exact absurd h (by simp [Ideal.cmp])

/-- Under the precondition every entry of the first two arguments is a real number. -/
theorem real_of_pre [Cert.Pre_finite_inputs.Facts] (a0 : FVec Ideal Cert.Pre_finite_inputs.S8192x128 .f32) (a1 : FVec Ideal Cert.Pre_finite_inputs.S8192x16 .f32)
    (a2 : FVec Ideal Cert.Pre_finite_inputs.S128 .f32)
    (h : Cert.Pre_finite_inputs.fn (F := Ideal) a0 a1 a2 = fun _ => 1#1) :
    (∀ i, ∃ r : ℝ, (a0 i : EReal) = (r : EReal)) ∧ (∀ i, ∃ r : ℝ, (a1 i : EReal) = (r : EReal)) := by
  have h0 := congrFun h ix0
  dsimp only [Cert.Pre_finite_inputs.fn] at h0
  obtain ⟨h01, -⟩ := IntOp.andi_eq_one.1 h0
  obtain ⟨hx, hy⟩ := IntOp.andi_eq_one.1 h01
  refine ⟨fun i => ?_, fun i => ?_⟩
  · have e := Host.reduce_andi_all _ _ _ _ _ hx i
    exact real_of_abs_lt _ e
  · have e := Host.reduce_andi_all _ _ _ _ _ hy i
    exact real_of_abs_lt _ e

theorem max_coe_zero (a : ℝ) : max (a : EReal) 0 = ((max a 0 : ℝ) : EReal) := by
  rw [← EReal.coe_zero]
  exact (EReal.coe_strictMono.monotone.map_max).symm

/-- With real entries the kernel's Gaussian weights form a real symmetric matrix. -/
theorem gw_real {d : ℕ} (c : ℝ) (z : (⟨2, ![8192, d]⟩ : Shape).Idx → EReal) (hz : ∀ i, ∃ r : ℝ, z i = (r : EReal)) :
    ∃ α : Fin 8192 → Fin 8192 → ℝ, (∀ i j, α i j = α j i) ∧ ∀ i j, Spec.gw (c : EReal) z i j = (α i j : EReal) := by
  choose zr hzr using hz
  refine ⟨fun i j => Real.exp (max ((∑ k : Fin d, zr (ix2 i k) * zr (ix2 i k)) + (∑ k : Fin d, zr (ix2 j k) * zr (ix2 j k))
      - 2 * ∑ k : Fin d, zr (ix2 i k) * zr (ix2 j k)) 0 * c), fun i j => ?_, fun i j => ?_⟩
  · show Real.exp _ = Real.exp _
    rw [add_comm (∑ k : Fin d, zr (ix2 i k) * zr (ix2 i k)), Finset.sum_congr rfl fun k _ => mul_comm (zr (ix2 i k)) (zr (ix2 j k))]
  · unfold Spec.gw Spec.dist2 Spec.sqn
    simp only [hzr, Ideal.ofBits_zero_f32, zero_add, Cert.Consts.ofBits_two, ← EReal.coe_mul, ← Cert.LibGram.coe_sum, ← EReal.coe_add,
      ← EReal.coe_sub, max_coe_zero, Ideal.exp_coe]

end Cert.Finite

end
-- ==== Proof.lean ====
/-
  The claim. The kernel's program and its idealization run to the end with the arguments unchanged: the region's
  windows, two pairs of which read one array each, are launched with each pair's array dealt to its two windows at
  half shares. The reference's frame is its run with the result dropped. The idealization rewrote nothing. At the ideal
  values both programs compute, from the Gaussian weight matrices A of x and B of y, minus the sum over all pairs of
  the product of the doubly centred matrices plus the penalty: the kernel in the closed form
  Σ A·B − (2/n)·Σᵢ rowᵢ(A)·rowᵢ(B) + (Σ A)(Σ B)/n², equal to the reference's centred sum because A and B are real and
  symmetric when the inputs are finite.
-/
import proofs.«104605_j13073880449542_2_alg».proof.Defs
import proofs.«104605_j13073880449542_2_alg».proof.Proof.Gen.Kernel
import proofs.«104605_j13073880449542_2_alg».proof.Proof.Gen.Kernel.Skeleton
import proofs.«104605_j13073880449542_2_alg».proof.Proof.Gen.Kernel.Launch
import proofs.«104605_j13073880449542_2_alg».proof.Proof.Gen.Kernel.Points
import proofs.«104605_j13073880449542_2_alg».proof.Proof.Gen.KernelIdeal
import proofs.«104605_j13073880449542_2_alg».proof.Proof.Gen.KernelIdeal.Skeleton
import proofs.«104605_j13073880449542_2_alg».proof.Proof.Gen.KernelIdeal.Launch
import proofs.«104605_j13073880449542_2_alg».proof.Proof.Gen.KernelIdeal.Points
import proofs.«104605_j13073880449542_2_alg».proof.Proof.Gen.ReferenceIdeal
import proofs.«104605_j13073880449542_2_alg».proof.Proof.Gen.ReferenceIdeal.Run
import proofs.«104605_j13073880449542_2_alg».proof.Proof.Gen.ReferenceIdeal.Read
import proofs.«104605_j13073880449542_2_alg».proof.Proof.Gen.Pre_finite_inputs
import proofs.«104605_j13073880449542_2_alg».proof.Proof.BitsLaunch
import proofs.«104605_j13073880449542_2_alg».proof.Proof.IdealValue
import proofs.«104605_j13073880449542_2_alg».proof.Proof.RefValue
import proofs.«104605_j13073880449542_2_alg».proof.Proof.Bridge
import proofs.«104605_j13073880449542_2_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Region.frame m ρ

theorem frame_ki : Cert.frame_KernelIdeal := fun m ρ _ => Cert.KernelIdeal.Region.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end at the kernel's closed form of the two weight matrices. -/
theorem algebraic : Cert.algebraic_KernelIdeal_ReferenceIdeal := by
  intro m ρ m' ρ' hpre hagree
  refine ⟨fun c _ => Cert.Spec.lossK (Cert.Spec.gw (Ideal.ofBits .f32 0xBC000000#32) (Cert.KernelIdeal.Region.argX m c))
      (Cert.Spec.gw (Ideal.ofBits .f32 0xBD000000#32) (Cert.KernelIdeal.Region.argY m c)) (Cert.KernelIdeal.Region.argB m c), ?_, ?_⟩
  · refine (θ_run Cert.KernelIdeal.defs _ _).mono (fun r h c => ?_) (Cert.KernelIdeal.Region.run_main m ρ)
    exact ⟨(h c _ (Cert.KernelIdeal.Region.mem_uc Cert.KernelIdeal.main_v25 (by decide))).trans
        (funext fun j => Cert.KernelIdeal.Region.result_eq m ρ c j),
      (h c _ (Cert.KernelIdeal.Region.mem_uc Cert.KernelIdeal.main_arg0 (by decide))).trans (Cert.KernelIdeal.Region.W3_main_arg0 m ρ c),
      (h c _ (Cert.KernelIdeal.Region.mem_uc Cert.KernelIdeal.main_arg1 (by decide))).trans (Cert.KernelIdeal.Region.W3_main_arg1 m ρ c),
      (h c _ (Cert.KernelIdeal.Region.mem_uc Cert.KernelIdeal.main_arg2 (by decide))).trans (Cert.KernelIdeal.Region.W3_main_arg2 m ρ c)⟩
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v74_eq]
    funext j
    rw [Cert.ReferenceIdeal.RefValue.result_eq, (hagree c).1, (hagree c).2.1, (hagree c).2.2]
    obtain ⟨hx, hy⟩ := Cert.Finite.real_of_pre _ _ _ (hpre c)
    obtain ⟨α, hαs, hα⟩ := Cert.Finite.gw_real (-(1 / 128)) (Cert.KernelIdeal.Region.argX m c) hx
    obtain ⟨γ, hγs, hγ⟩ := Cert.Finite.gw_real (-(1 / 32)) (Cert.KernelIdeal.Region.argY m c) hy
    have eA : Cert.Spec.gw (Ideal.ofBits .f32 0xBC000000#32) (Cert.KernelIdeal.Region.argX m c) = fun i j => (α i j : EReal) :=
      funext fun i => funext fun j => by rw [Cert.Consts.ofBits_neg_inv128, hα]
    have eB : Cert.Spec.gw (Ideal.ofBits .f32 0xBD000000#32) (Cert.KernelIdeal.Region.argY m c) = fun i j => (γ i j : EReal) :=
      funext fun i => funext fun j => by rw [Cert.Consts.ofBits_neg_inv32, hγ]
    have eA' : Cert.Spec.gwR (Ideal.ofBits .f32 0x43000000#32) (Cert.KernelIdeal.Region.argX m c) = fun i j => (α i j : EReal) :=
      funext fun i => funext fun j => by rw [← Cert.Bridge.gw_eq_gwR_x, Cert.Consts.ofBits_neg_inv128, hα]
    have eB' : Cert.Spec.gwR (Ideal.ofBits .f32 0x42000000#32) (Cert.KernelIdeal.Region.argY m c) = fun i j => (γ i j : EReal) :=
      funext fun i => funext fun j => by rw [← Cert.Bridge.gw_eq_gwR_y, Cert.Consts.ofBits_neg_inv32, hγ]
    show Cert.Spec.lossR (Cert.Spec.gwR (Ideal.ofBits .f32 0x43000000#32) (Cert.KernelIdeal.Region.argX m c))
        (Cert.Spec.gwR (Ideal.ofBits .f32 0x42000000#32) (Cert.KernelIdeal.Region.argY m c)) (Cert.KernelIdeal.Region.argB m c)
      = Cert.Spec.lossK (Cert.Spec.gw (Ideal.ofBits .f32 0xBC000000#32) (Cert.KernelIdeal.Region.argX m c))
        (Cert.Spec.gw (Ideal.ofBits .f32 0xBD000000#32) (Cert.KernelIdeal.Region.argY m c)) (Cert.KernelIdeal.Region.argB m c)
    rw [eA, eB, eA', eB']
    exact (Cert.Bridge.lossK_eq_lossR α γ hαs hγs _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
